-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x16 : Shape := ⟨2, ![4096, 16]⟩
abbrev S16x4096 : Shape := ⟨2, ![16, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn {F : FTy → Type} [FloatOps F] (main_arg0 : FVec F S8192x4096 .f32) (main_arg1 : FVec F S4096x16 .f32) (main_arg2 : FVec F S16x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  main_v13
-- ==== Kernel.lean ====
abbrev S8192x4096 : Shape := ⟨2, ![8192, 4096]⟩
abbrev S4096x16 : Shape := ⟨2, ![4096, 16]⟩
abbrev S16x4096 : Shape := ⟨2, ![16, 4096]⟩
abbrev S832x4096 : Shape := ⟨2, ![832, 4096]⟩
abbrev S832x16 : Shape := ⟨2, ![832, 16]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x16, .f32⟩
  | .hbm, ⟨2, _⟩ => ⟨S16x4096, .f32⟩
  | .hbm, ⟨3, _⟩ => ⟨S16x4096, .f32⟩
  | .hbm, ⟨4, _⟩ => ⟨S8192x4096, .f32⟩
  | .local _ .vmem, ⟨0, _⟩ => ⟨S832x4096, .f32⟩
  | .local _ .vmem, ⟨1, _⟩ => ⟨S832x4096, .f32⟩
  | .local _ .vmem, ⟨2, _⟩ => ⟨S16x4096, .f32⟩
  | .local _ .vmem, ⟨3, _⟩ => ⟨S16x4096, .f32⟩
  | .local _ .vmem, ⟨4, _⟩ => ⟨S832x4096, .f32⟩
  | .local _ .vmem, ⟨5, _⟩ => ⟨S832x4096, .f32⟩
  | .local _ .vmem, ⟨6, _⟩ => ⟨S4096x16, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S832x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S832x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S4096x16_S16x4096_1_0 : S4096x16.Transposes [1, 0] S16x4096
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  transposes_S16x4096_p1_0_S4096x16 : S16x4096.Transposes [1, 0] S4096x16
  bitsLt_bf16_f32 : FTy.bits .bf16 < FTy.bits .f32
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  packedbf16_S4096x16_S4096x16_0_0 : (Rect.unit (s := S4096x16) ![0, 0] S4096x16.size inb_S4096x16_S4096x16_0_0).PackedRows (EltTy.packing .bf16)
  inb_S832x4096_S832x4096_0_0 : ∀ a, (![0, 0] : Fin 2 → Nat) a + S832x4096.size a ≤ S832x4096.size a
  h_S832x4096 : 0 < S832x4096.numel
  dot_S832x4096_S4096x16_S832x16_1_0_0_1_n_n_wf : DotDims.WF S832x4096 S4096x16 S832x16 [1] [0] [0] [1] [] []
  dot_S832x16_S16x4096_S832x4096_1_0_0_1_n_n_wf : DotDims.WF S832x16 S16x4096 S832x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S832x4096.size a < S8192x4096.size a
  hwx0_0 : ∀ i : grid0.Coords, EltTy.bits .f32 = 32 ∨ (Rect.unit (s := S8192x4096) (fun a => cc0_transform_0 i a * S832x4096.size a) (fun a => (Pipeline.Clip.of (cc0_transform_0 i a) (S832x4096.size a) (S8192x4096.size a)).extent (S832x4096.size a)) fun a => Pipeline.Clip.inb (Pipeline.Clip.ok_of (hstart0_0 i a))).WholeWords (EltTy.packing .f32)
  hwxs0_0 : ∀ i : grid0.Coords, EltTy.bits .f32 = 32 ∨ (Rect.unit (s := S832x4096) (fun _ => 0) (fun a => (Pipeline.Clip.of (cc0_transform_0 i a) (S832x4096.size a) (S8192x4096.size a)).extent (S832x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4096.size a ≤ S16x4096.size a
  hwx0_1 : ∀ i : grid0.Coords, EltTy.bits .f32 = 32 ∨ (Rect.block (s := S16x4096) S16x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x4096.size a
  hwx0_2 : ∀ i : grid0.Coords, EltTy.bits .f32 = 32 ∨ (Rect.block (s := S16x4096) S16x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S832x4096.size a < S8192x4096.size a
  hwx0_3 : ∀ i : grid0.Coords, EltTy.bits .f32 = 32 ∨ (Rect.unit (s := S8192x4096) (fun a => cc0_transform_3 i a * S832x4096.size a) (fun a => (Pipeline.Clip.of (cc0_transform_3 i a) (S832x4096.size a) (S8192x4096.size a)).extent (S832x4096.size a)) fun a => Pipeline.Clip.inb (Pipeline.Clip.ok_of (hstart0_3 i a))).WholeWords (EltTy.packing .f32)
  hwxs0_3 : ∀ i : grid0.Coords, EltTy.bits .f32 = 32 ∨ (Rect.unit (s := S832x4096) (fun _ => 0) (fun a => (Pipeline.Clip.of (cc0_transform_3 i a) (S832x4096.size a) (S8192x4096.size a)).extent (S832x4096.size a)) fun a => (Nat.zero_add _).trans_le (Pipeline.Clip.extent_le (Pipeline.Clip.ok_of (hstart0_3 i a)))).WholeWords (EltTy.packing .f32)

variable [Facts₀]

def dot_S832x4096_S4096x16_S832x16_1_0_0_1_n_n : DotDims S832x4096 S4096x16 S832x16 where
  lhsContracting := [1]
  rhsContracting := [0]
  lhsNonContracting := [0]
  rhsNonContracting := [1]
  lhsBatch := []
  rhsBatch := []
  wf := dot_S832x4096_S4096x16_S832x16_1_0_0_1_n_n_wf
def dot_S832x16_S16x4096_S832x4096_1_0_0_1_n_n : DotDims S832x16 S16x4096 S832x4096 where
  lhsContracting := [1]
  rhsContracting := [0]
  lhsNonContracting := [0]
  rhsNonContracting := [1]
  lhsBatch := []
  rhsBatch := []
  wf := dot_S832x16_S16x4096_S832x4096_1_0_0_1_n_n_wf

abbrev win0_0 : Pipeline.Window sig grid0 :=
  Pipeline.Window.ofSpecClip (Memref.whole main_arg0) S832x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S16x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v1) S832x4096.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x16 : Shape := ⟨2, ![4096, 16]⟩
abbrev S16x4096 : Shape := ⟨2, ![16, 4096]⟩
abbrev S_ : Shape := ⟨0, ![]⟩
abbrev S1024x4096 : Shape := ⟨2, ![1024, 4096]⟩
abbrev S16x512 : Shape := ⟨2, ![16, 512]⟩
abbrev S1024x512 : Shape := ⟨2, ![1024, 512]⟩
abbrev S1024x16 : Shape := ⟨2, ![1024, 16]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x16, .f32⟩
  | .hbm, ⟨2, _⟩ => ⟨S16x4096, .f32⟩
  | .hbm, ⟨3, _⟩ => ⟨S_, .f32⟩
  | .hbm, ⟨4, _⟩ => ⟨S16x4096, .f32⟩
  | .hbm, ⟨5, _⟩ => ⟨S16x4096, .f32⟩
  | .hbm, ⟨6, _⟩ => ⟨S8192x4096, .f32⟩
  | .local _ .vmem, ⟨0, _⟩ => ⟨S1024x4096, .f32⟩
  | .local _ .vmem, ⟨1, _⟩ => ⟨S1024x4096, .f32⟩
  | .local _ .vmem, ⟨2, _⟩ => ⟨S4096x16, .f32⟩
  | .local _ .vmem, ⟨3, _⟩ => ⟨S16x512, .f32⟩
  | .local _ .vmem, ⟨4, _⟩ => ⟨S16x512, .f32⟩
  | .local _ .vmem, ⟨5, _⟩ => ⟨S1024x512, .f32⟩
  | .local _ .vmem, ⟨6, _⟩ => ⟨S1024x512, .f32⟩
  | .local _ .vmem, ⟨7, _⟩ => ⟨S1024x16, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S16x4096 : S_.BroadcastsInDim S16x4096 (![] : Fin 0 → Fin S16x4096.rank)
  inb_S1024x4096_S1024x4096_0_0 : ∀ a, (![0, 0] : Fin 2 → Nat) a + S1024x4096.size a ≤ S1024x4096.size a
  h_S1024x4096 : 0 < S1024x4096.numel
  inb_S4096x16_S4096x16_0_0 : ∀ a, (![0, 0] : Fin 2 → Nat) a + S4096x16.size a ≤ S4096x16.size a
  h_S4096x16 : 0 < S4096x16.numel
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S1024x512_S1024x512_0_0 : ∀ a, (![0, 0] : Fin 2 → Nat) a + S1024x512.size a ≤ S1024x512.size a
  h_S1024x512 : 0 < S1024x512.numel
  dot_S1024x4096_S4096x16_S1024x16_1_0_0_1_n_n_wf : DotDims.WF S1024x4096 S4096x16 S1024x16 [1] [0] [0] [1] [] []
  dot_S1024x16_S16x512_S1024x512_1_0_0_1_n_n_wf : DotDims.WF S1024x16 S16x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S4096x16.size a
  hwx0_1 : ∀ i : grid0.Coords, EltTy.bits .f32 = 32 ∨ (Rect.block (s := S4096x16) S4096x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S16x4096.size a
  hwx0_2 : ∀ i : grid0.Coords, EltTy.bits .f32 = 32 ∨ (Rect.block (s := S16x4096) S16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def dot_S1024x4096_S4096x16_S1024x16_1_0_0_1_n_n : DotDims S1024x4096 S4096x16 S1024x16 where
  lhsContracting := [1]
  rhsContracting := [0]
  lhsNonContracting := [0]
  rhsNonContracting := [1]
  lhsBatch := []
  rhsBatch := []
  wf := dot_S1024x4096_S4096x16_S1024x16_1_0_0_1_n_n_wf
def dot_S1024x16_S16x512_S1024x512_1_0_0_1_n_n : DotDims S1024x16 S16x512 S1024x512 where
  lhsContracting := [1]
  rhsContracting := [0]
  lhsNonContracting := [0]
  rhsNonContracting := [1]
  lhsBatch := []
  rhsBatch := []
  wf := dot_S1024x16_S16x512_S1024x512_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.KRuns.lean ====
/-
  The kernel body of the LoRA product, run once per control case, at any float instance.

  The body has one conditional, on the grid coordinate: at the first point it loads the staged copy of the
  transposed factor (16 x 4096), transposes it back, narrows it and stores it whole into the scratch (4096 x 16);
  at every point it then loads the staged rows of `x` (832 x 4096), the scratch and the staged second factor
  (16 x 4096), and stores the product  (16 * (x . scratch)) . B  whole into the result's staging buffer.
  So there are two cases: the first point, where the scratch arrives holding anything and leaves holding the
  narrowed transpose; and the later points, where the scratch arrives holding what an earlier point left and is
  only read. Each case's run is stated on ANY whole memrefs with the inputs at given contents, and yields the
  pieces the stores leave in the result's buffer (and, in the first case, in the scratch).
-/
import proofs.«171104_g2000505684096532_pallasbulk_122_20_alg».proof.Proof.Gen.Kernel.Frame
import proofs.«171104_g2000505684096532_pallasbulk_122_20_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition, as a function of the grid coordinate: "this is the first point". -/
abbrev firstPoint (i : grid0.Coords) : Prop :=
  (Scalar.cmpi .ne (Scalar.extui (Scalar.cmpi .eq (BitVec.ofNat 32 (i 0).val) 0#32)) 0#32) = 1#1

/-- It holds at point 0 and at no other of the ten points. -/
theorem firstPoint_iff : ∀ t : Fin cfg0.N, firstPoint (grid0.coords t) ↔ t.val = 0 :=
  (by decide +kernel : ∀ t : Fin grid0.N, firstPoint (grid0.coords t) ↔ t.val = 0)

set_option maxHeartbeats 1000000 in
/-- THE FIRST POINT. With the three inputs' memrefs at `x0`, `x1`, `x2`, the result's and the scratch at anything,
    the body runs and leaves the inputs as they were, the result's memref with the pieces `L3` written and the
    scratch with the pieces `LS` written; the pieces are what the run finds. -/
noncomputable def runFirst (c : Dev nD) (i : grid0.Coords) (arg1 : Memref sig .tc .vmem S832x4096 .f32) (harg1 : arg1.IsWhole) (arg2 : Memref sig .tc .vmem S16x4096 .f32) (harg2 : arg2.IsWhole) (arg3 : Memref sig .tc .vmem S16x4096 .f32) (harg3 : arg3.IsWhole) (arg4 : Memref sig .tc .vmem S832x4096 .f32) (harg4 : arg4.IsWhole) (arg5 : Memref sig .tc .vmem S4096x16 .bf16) (harg5 : arg5.IsWhole) (hc0 : firstPoint i)
    (x0 : Vec F S832x4096 .f32) (x1 : Vec F S16x4096 .f32) (x2 : Vec F S16x4096 .f32) :
    Σ' (L3 : List (View.Piece (Elt F) S832x4096 .f32)), { LS : List (View.Piece (Elt F) S4096x16 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS)) -∗ K ⟨⟩))
          ⊢ wp frame (wpE (defs₀ (F := F)) Variants.none c none) E (cc0__lora_body i arg1 harg1 arg2 harg2 arg3 harg3 arg4 harg4 arg5 harg5) K } := by
  refine ⟨?_, ?_, fun E K => ?run⟩
  case run =>
    simp only [cc0__lora_body_eq_skeleton]; unfold cc0__lora_body_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

set_option maxHeartbeats 1000000 in
/-- A LATER POINT. The scratch arrives at `xs` and is only read: the body leaves the inputs and the scratch as they
    were and the result's memref with the pieces `L3` written. -/
noncomputable def runLater (c : Dev nD) (i : grid0.Coords) (arg1 : Memref sig .tc .vmem S832x4096 .f32) (harg1 : arg1.IsWhole) (arg2 : Memref sig .tc .vmem S16x4096 .f32) (harg2 : arg2.IsWhole) (arg3 : Memref sig .tc .vmem S16x4096 .f32) (harg3 : arg3.IsWhole) (arg4 : Memref sig .tc .vmem S832x4096 .f32) (harg4 : arg4.IsWhole) (arg5 : Memref sig .tc .vmem S4096x16 .bf16) (harg5 : arg5.IsWhole) (hc0 : ¬firstPoint i)
    (x0 : Vec F S832x4096 .f32) (x1 : Vec F S16x4096 .f32) (x2 : Vec F S16x4096 .f32) (xs : Vec F S4096x16 .bf16) :
    { L3 : List (View.Piece (Elt F) S832x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xs) -∗ K ⟨⟩))
          ⊢ wp frame (wpE (defs₀ (F := F)) Variants.none c none) E (cc0__lora_body i arg1 harg1 arg2 harg2 arg3 harg3 arg4 harg4 arg5 harg5) K } := by
  refine ⟨?_, fun E K => ?run⟩
  case run =>
    simp only [cc0__lora_body_eq_skeleton]; unfold cc0__lora_body_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; isplitr; · ipureintro; exact harg5.read_unread _
    iexact HS0

end Cert.Kernel.Body

end
-- ==== Proof.KPieces.lean ====
/-
  What the body's stores leave, as values.

  Each run of the body (the first point; a later point) found ONE piece per buffer it stores into, and each piece is
  a store of a whole buffer: so what a buffer holds afterwards is that store's payload, whatever it held before.
  Read back, the payloads are: into the scratch, the narrowed transpose of the staged 16 x 4096 factor; into the
  result's buffer, the product  (16 * (rows . scratch)) . B  of the staged rows, the scratch's contents — at the
  first point the contents just stored — and the staged second factor. The two triples below restate the runs with
  those contents.
-/
import proofs.«171104_g2000505684096532_pallasbulk_122_20_alg».proof.Proof.KRuns
import Idealize.ShloMosaic.Lib.Pipeline.Value
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The offsets of a whole-buffer access are zeros. -/
theorem offsets_zero : (![0, 0] : Fin 2 → Nat) = fun _ => 0 := funext fun a => by fin_cases a <;> rfl

/-! ## The first point -/

theorem coverFirst_out (c : Dev nD) (i : grid0.Coords) (arg1 : Memref sig .tc .vmem S832x4096 .f32) (harg1 : arg1.IsWhole) (arg2 : Memref sig .tc .vmem S16x4096 .f32) (harg2 : arg2.IsWhole) (arg3 : Memref sig .tc .vmem S16x4096 .f32) (harg3 : arg3.IsWhole) (arg4 : Memref sig .tc .vmem S832x4096 .f32) (harg4 : arg4.IsWhole) (arg5 : Memref sig .tc .vmem S4096x16 .bf16) (harg5 : arg5.IsWhole) (hc0 : firstPoint i) (x0 : Vec F S832x4096 .f32) (x1 : Vec F S16x4096 .f32) (x2 : Vec F S16x4096 .f32) (y : S832x4096.Idx) :
    ∃ pc ∈ (runFirst (F := F) c i arg1 harg1 arg2 harg2 arg3 harg3 arg4 harg4 arg5 harg5 hc0 x0 x1 x2).1, y ∈ pc.1.set :=
  View.cover_of_tiledL (runFirst (F := F) c i arg1 harg1 arg2 harg2 arg3 harg3 arg4 harg4 arg5 harg5 hc0 x0 x1 x2).1 S832x4096.size (by sl_kernel_rfl) y

theorem coverFirst_scr (c : Dev nD) (i : grid0.Coords) (arg1 : Memref sig .tc .vmem S832x4096 .f32) (harg1 : arg1.IsWhole) (arg2 : Memref sig .tc .vmem S16x4096 .f32) (harg2 : arg2.IsWhole) (arg3 : Memref sig .tc .vmem S16x4096 .f32) (harg3 : arg3.IsWhole) (arg4 : Memref sig .tc .vmem S832x4096 .f32) (harg4 : arg4.IsWhole) (arg5 : Memref sig .tc .vmem S4096x16 .bf16) (harg5 : arg5.IsWhole) (hc0 : firstPoint i) (x0 : Vec F S832x4096 .f32) (x1 : Vec F S16x4096 .f32) (x2 : Vec F S16x4096 .f32) (y : S4096x16.Idx) :
    ∃ pc ∈ (runFirst (F := F) c i arg1 harg1 arg2 harg2 arg3 harg3 arg4 harg4 arg5 harg5 hc0 x0 x1 x2).2.1, y ∈ pc.1.set :=
  View.cover_of_tiledL (runFirst (F := F) c i arg1 harg1 arg2 harg2 arg3 harg3 arg4 harg4 arg5 harg5 hc0 x0 x1 x2).2.1 S4096x16.size (by sl_kernel_rfl) y

/-- The result's buffer after the first point: the product over the scratch contents just stored. -/
theorem readFirst_out (c : Dev nD) (i : grid0.Coords) (arg1 : Memref sig .tc .vmem S832x4096 .f32) (harg1 : arg1.IsWhole) (arg2 : Memref sig .tc .vmem S16x4096 .f32) (harg2 : arg2.IsWhole) (arg3 : Memref sig .tc .vmem S16x4096 .f32) (harg3 : arg3.IsWhole) (arg4 : Memref sig .tc .vmem S832x4096 .f32) (harg4 : arg4.IsWhole) (arg5 : Memref sig .tc .vmem S4096x16 .bf16) (harg5 : arg5.IsWhole) (hc0 : firstPoint i) (x0 : Vec F S832x4096 .f32) (x1 : Vec F S16x4096 .f32) (x2 : Vec F S16x4096 .f32) (v : View sig .tc .vmem S832x4096 .f32) (f : v.ty.Contents (Elt F)) :
    v.read (Elt F) (v.writes (Elt F) f (runFirst (F := F) c i arg1 harg1 arg2 harg2 arg3 harg3 arg4 harg4 arg5 harg5 hc0 x0 x1 x2).1) = k0_pay2 x0 (k0_pay1 x1) x2 := by
  rw [View.read_writes_eq_canon _ _ _ (coverFirst_out c i arg1 harg1 arg2 harg2 arg3 harg3 arg4 harg4 arg5 harg5 hc0 x0 x1 x2)]
  unfold runFirst; dsimp only; sl_unfold_words
  rw [View.canon_unit_zero offsets_zero]
  simp only [View.readAt_eq_ld, harg1.read_unread, harg2.read_unread, harg3.read_unread,
    View.ld_unit_zero (S := S832x4096) offsets_zero, View.ld_unit_zero (S := S16x4096) offsets_zero]
  rw [View.readCov_unit_zero (S := S4096x16) arg5.view offsets_zero]

/-- The scratch after the first point: the narrowed transpose of the staged factor. -/
theorem readFirst_scr (c : Dev nD) (i : grid0.Coords) (arg1 : Memref sig .tc .vmem S832x4096 .f32) (harg1 : arg1.IsWhole) (arg2 : Memref sig .tc .vmem S16x4096 .f32) (harg2 : arg2.IsWhole) (arg3 : Memref sig .tc .vmem S16x4096 .f32) (harg3 : arg3.IsWhole) (arg4 : Memref sig .tc .vmem S832x4096 .f32) (harg4 : arg4.IsWhole) (arg5 : Memref sig .tc .vmem S4096x16 .bf16) (harg5 : arg5.IsWhole) (hc0 : firstPoint i) (x0 : Vec F S832x4096 .f32) (x1 : Vec F S16x4096 .f32) (x2 : Vec F S16x4096 .f32) (v : View sig .tc .vmem S4096x16 .bf16) (f : v.ty.Contents (Elt F)) :
    v.read (Elt F) (v.writes (Elt F) f (runFirst (F := F) c i arg1 harg1 arg2 harg2 arg3 harg3 arg4 harg4 arg5 harg5 hc0 x0 x1 x2).2.1) = k0_pay1 x1 := by
  rw [View.read_writes_eq_canon _ _ _ (coverFirst_scr c i arg1 harg1 arg2 harg2 arg3 harg3 arg4 harg4 arg5 harg5 hc0 x0 x1 x2)]
  unfold runFirst; dsimp only; sl_unfold_words
  rw [View.canon_unit_zero offsets_zero]
  simp only [View.readAt_eq_ld, harg2.read_unread, View.ld_unit_zero (S := S16x4096) offsets_zero]

/-- THE FIRST POINT, with contents: the scratch leaves holding the narrowed transpose, the result's buffer the
    product over it. -/
theorem bodyFirst (c : Dev nD) (i : grid0.Coords) (arg1 : Memref sig .tc .vmem S832x4096 .f32) (harg1 : arg1.IsWhole) (arg2 : Memref sig .tc .vmem S16x4096 .f32) (harg2 : arg2.IsWhole) (arg3 : Memref sig .tc .vmem S16x4096 .f32) (harg3 : arg3.IsWhole) (arg4 : Memref sig .tc .vmem S832x4096 .f32) (harg4 : arg4.IsWhole) (arg5 : Memref sig .tc .vmem S4096x16 .bf16) (harg5 : arg5.IsWhole) (hc0 : firstPoint i) (x0 : Vec F S832x4096 .f32) (x1 : Vec F S16x4096 .f32) (x2 : Vec F S16x4096 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (k0_pay2 x0 (k0_pay1 x1) x2) ∗ owns (c : Thread nD τ) arg5 fullShare (k0_pay1 x1)) -∗ K ⟨⟩))
      ⊢ wp frame (wpE (defs₀ (F := F)) Variants.none c none) E (cc0__lora_body i arg1 harg1 arg2 harg2 arg3 harg3 arg4 harg4 arg5 harg5) K := by
  iintro ⟨H0, H1, H2, H3, HS, Hk⟩
  iapply ((runFirst (F := F) c i arg1 harg1 arg2 harg2 arg3 harg3 arg4 harg4 arg5 harg5 hc0 x0 x1 x2).2.2 E K)
  isplitl [H0]; · iexact H0
  isplitl [H1]; · iexact H1
  isplitl [H2]; · iexact H2
  isplitl [H3]; · iexact H3
  isplitl [HS]; · iexact HS
  iintro ⟨H0, H1, H2, ⟨%e3, H3⟩, ⟨%es, HS⟩⟩
  iapply Hk
  isplitl [H0]; · iexact H0
  isplitl [H1]; · iexact H1
  isplitl [H2]; · iexact H2
  isplitl [H3]
  · unfold owns; iexists _; isplitr
    swap; · iexact H3
    ipureintro; exact readFirst_out c i arg1 harg1 arg2 harg2 arg3 harg3 arg4 harg4 arg5 harg5 hc0 x0 x1 x2 _ _
  · unfold owns; iexists _; isplitr
    swap; · iexact HS
    ipureintro; exact readFirst_scr c i arg1 harg1 arg2 harg2 arg3 harg3 arg4 harg4 arg5 harg5 hc0 x0 x1 x2 _ _

/-! ## A later point -/

theorem coverLater_out (c : Dev nD) (i : grid0.Coords) (arg1 : Memref sig .tc .vmem S832x4096 .f32) (harg1 : arg1.IsWhole) (arg2 : Memref sig .tc .vmem S16x4096 .f32) (harg2 : arg2.IsWhole) (arg3 : Memref sig .tc .vmem S16x4096 .f32) (harg3 : arg3.IsWhole) (arg4 : Memref sig .tc .vmem S832x4096 .f32) (harg4 : arg4.IsWhole) (arg5 : Memref sig .tc .vmem S4096x16 .bf16) (harg5 : arg5.IsWhole) (hc0 : ¬firstPoint i) (x0 : Vec F S832x4096 .f32) (x1 : Vec F S16x4096 .f32) (x2 : Vec F S16x4096 .f32) (xs : Vec F S4096x16 .bf16) (y : S832x4096.Idx) :
    ∃ pc ∈ (runLater (F := F) c i arg1 harg1 arg2 harg2 arg3 harg3 arg4 harg4 arg5 harg5 hc0 x0 x1 x2 xs).1, y ∈ pc.1.set :=
  View.cover_of_tiledL (runLater (F := F) c i arg1 harg1 arg2 harg2 arg3 harg3 arg4 harg4 arg5 harg5 hc0 x0 x1 x2 xs).1 S832x4096.size (by sl_kernel_rfl) y

/-- The result's buffer after a later point: the product over the scratch contents it found. -/
theorem readLater_out (c : Dev nD) (i : grid0.Coords) (arg1 : Memref sig .tc .vmem S832x4096 .f32) (harg1 : arg1.IsWhole) (arg2 : Memref sig .tc .vmem S16x4096 .f32) (harg2 : arg2.IsWhole) (arg3 : Memref sig .tc .vmem S16x4096 .f32) (harg3 : arg3.IsWhole) (arg4 : Memref sig .tc .vmem S832x4096 .f32) (harg4 : arg4.IsWhole) (arg5 : Memref sig .tc .vmem S4096x16 .bf16) (harg5 : arg5.IsWhole) (hc0 : ¬firstPoint i) (x0 : Vec F S832x4096 .f32) (x1 : Vec F S16x4096 .f32) (x2 : Vec F S16x4096 .f32) (xs : Vec F S4096x16 .bf16) (v : View sig .tc .vmem S832x4096 .f32) (f : v.ty.Contents (Elt F)) :
    v.read (Elt F) (v.writes (Elt F) f (runLater (F := F) c i arg1 harg1 arg2 harg2 arg3 harg3 arg4 harg4 arg5 harg5 hc0 x0 x1 x2 xs).1) = k0_pay2 x0 xs x2 := by
  rw [View.read_writes_eq_canon _ _ _ (coverLater_out c i arg1 harg1 arg2 harg2 arg3 harg3 arg4 harg4 arg5 harg5 hc0 x0 x1 x2 xs)]
  unfold runLater; dsimp only; sl_unfold_words
  rw [View.canon_unit_zero offsets_zero]
  simp only [View.readAt_eq_ld, harg1.read_unread, harg3.read_unread, harg5.read_unread,
    View.ld_unit_zero (S := S832x4096) offsets_zero, View.ld_unit_zero (S := S16x4096) offsets_zero,
    View.ld_unit_zero (S := S4096x16) offsets_zero]

/-- A LATER POINT, with contents: the scratch is kept, the result's buffer leaves holding the product over it. -/
theorem bodyLater (c : Dev nD) (i : grid0.Coords) (arg1 : Memref sig .tc .vmem S832x4096 .f32) (harg1 : arg1.IsWhole) (arg2 : Memref sig .tc .vmem S16x4096 .f32) (harg2 : arg2.IsWhole) (arg3 : Memref sig .tc .vmem S16x4096 .f32) (harg3 : arg3.IsWhole) (arg4 : Memref sig .tc .vmem S832x4096 .f32) (harg4 : arg4.IsWhole) (arg5 : Memref sig .tc .vmem S4096x16 .bf16) (harg5 : arg5.IsWhole) (hc0 : ¬firstPoint i) (x0 : Vec F S832x4096 .f32) (x1 : Vec F S16x4096 .f32) (x2 : Vec F S16x4096 .f32) (xs : Vec F S4096x16 .bf16) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg4 fullShare (k0_pay2 x0 xs x2) ∗ owns (c : Thread nD τ) arg5 fullShare xs) -∗ K ⟨⟩))
      ⊢ wp frame (wpE (defs₀ (F := F)) Variants.none c none) E (cc0__lora_body i arg1 harg1 arg2 harg2 arg3 harg3 arg4 harg4 arg5 harg5) K := by
  iintro ⟨H0, H1, H2, H3, HS, Hk⟩
  iapply ((runLater (F := F) c i arg1 harg1 arg2 harg2 arg3 harg3 arg4 harg4 arg5 harg5 hc0 x0 x1 x2 xs).2 E K)
  isplitl [H0]; · iexact H0
  isplitl [H1]; · iexact H1
  isplitl [H2]; · iexact H2
  isplitl [H3]; · iexact H3
  isplitl [HS]; · iexact HS
  iintro ⟨H0, H1, H2, ⟨%e3, H3⟩, HS⟩
  iapply Hk
  isplitl [H0]; · iexact H0
  isplitl [H1]; · iexact H1
  isplitl [H2]; · iexact H2
  isplitl [H3]
  · unfold owns; iexists _; isplitr
    swap; · iexact H3
    ipureintro; exact readLater_out c i arg1 harg1 arg2 harg2 arg3 harg3 arg4 harg4 arg5 harg5 hc0 x0 x1 x2 xs _ _
  · iexact HS

end Cert.Kernel.Body

end
-- ==== Proof.KFrame.lean ====
/-
  The frame of the word-level kernel: it runs, nothing faults, and the three argument arrays end as they began.

  For this claim nothing the kernel computes needs a name. The proof data says: each input's staging buffer holds
  its block after the body as before it — for the row tiles of `x`, whose last tile overhangs the array by 128 rows,
  on the rows inside the array only —; what the body leaves in the result's buffer is forgotten; and the scratch,
  with the generator register, is held at some contents throughout, which is all either case of the body needs:
  the first point overwrites the scratch, the later points read whatever it holds.
-/
import proofs.«171104_g2000505684096532_pallasbulk_122_20_alg».proof.Proof.KPieces
import Idealize.ShloMosaic.Lib.Pipeline.Kit
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch, as the whole buffer the body is handed. -/
abbrev scratch : Memref sig .tc .vmem S4096x16 .bf16 := Memref.whole cc0_scratch0

/-- What the region holds beside the windows: the scratch at some contents, and the generator register. -/
theorem rest_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-- The window whose contents after the body are not named: the result's. -/
def forgets : Fin 4 → Bool := fun w => w.val == 3

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) :
    (dats m 0 c).after 0 t = win0_0.fill (grid0.coords t) (fun _ => Scalar.ofBits .f32 0#32) (iblk m c 0 t) := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]

/-- The row tile is fetched at every point: its buffer holds the tile's rows inside the array, anything below them. -/
theorem before_0 (c : Dev nD) (t : Fin cfg0.N) (d) :
    (dats m 0 c).before 0 t d = win0_0.fill (grid0.coords t) d (iblk m c 0 t) :=
  ((dats m 0 c).before_fetched 0 t (fetch0_0 t) d).trans (by unfold Dat.fetched Dat.blockOf iblk; rfl)
/-- The two factors are fetched once and found at every point. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

set_option maxHeartbeats 1600000 in
/-- The body at any point. At the first point the scratch, held at some contents, is overwritten; at a later point
    it is read at whatever it holds. Either way the inputs' buffers are left as found — the row tile's on the rows
    inside the array is all that is asked —, the scratch is again held at some contents, and the result's buffer is
    handed back at some contents. -/
theorem sound_body (c : Dev nD) (t : Fin cfg0.N) :
    iprop((dats m 0 c).Φ t.castSucc ∗ (dats m 0 c).owesAt () t.castSucc
        ∗ (∃ d, owns (c : Thread nD τ) (win0_0.stage (cfg0.slots t 0)) fullShare ((dats m 0 c).before 0 t d))
        ∗ (∃ d, owns (c : Thread nD τ) (win0_1.stage (cfg0.slots t 1)) fullShare ((dats m 0 c).before 1 t d))
        ∗ (∃ d, owns (c : Thread nD τ) (win0_2.stage (cfg0.slots t 2)) fullShare ((dats m 0 c).before 2 t d))
        ∗ (∃ X, owns (c : Thread nD τ) (win0_3.stage (cfg0.slots t 3)) fullShare X))
      ⊢ wp frame (wpE (defs₀ (F := F)) Variants.none c none) Set.univ (bodyAt0 t) (fun _ =>
          iprop((dats m 0 c).Φ t.succ ∗ (dats m 0 c).owesAt () t.succ
            ∗ (∃ d, owns (c : Thread nD τ) (win0_0.stage (cfg0.slots t 0)) fullShare
                (win0_0.fill (grid0.coords t) d (win0_0.cut (grid0.coords t) ((dats m 0 c).after 0 t))))
            ∗ owns (c : Thread nD τ) (win0_1.stage (cfg0.slots t 1)) fullShare ((dats m 0 c).after 1 t)
            ∗ owns (c : Thread nD τ) (win0_2.stage (cfg0.slots t 2)) fullShare ((dats m 0 c).after 2 t)
            ∗ (∃ X, owns (c : Thread nD τ) (win0_3.stage (cfg0.slots t 3)) fullShare X))) := by
  unfold bodyAt0
  simp only [before_0, before_1, before_2]
  rw [show (dats m 0 c).owesAt () t.succ = (dats m 0 c).owesAt () t.castSucc from rfl, after_0, after_1, after_2,
    win0_0.cut_fill]
  rw [show (dats m 0 c).Φ t.succ = Pipeline.ΦA spec0 c from rfl,
    show (dats m 0 c).Φ t.castSucc = Pipeline.ΦA spec0 c from rfl, rest_eq]
  by_cases hz : t.val = 0
  · iintro ⟨⟨HS, Hg⟩, Ho, ⟨%d0, H0⟩, ⟨%d1, H1⟩, ⟨%d2, H2⟩, H3⟩
    iapply (bodyFirst (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) scratch (Memref.isWhole_whole _) ((firstPoint_iff t).mpr hz)
      (win0_0.fill (grid0.coords t) d0 (iblk m c 0 t)) (iblk m c 1 t) (iblk m c 2 t) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]
      · iexists _; iexact HS
      iexact Hg
    isplitl [Ho]; · iexact Ho
    isplitl [H0]; · iexists d0; iexact H0
    isplitl [H1]; · iexact H1
    isplitl [H2]; · iexact H2
    iexists _; iexact H3
  · iintro ⟨⟨⟨%ds, HS⟩, Hg⟩, Ho, ⟨%d0, H0⟩, ⟨%d1, H1⟩, ⟨%d2, H2⟩, H3⟩
    iapply (bodyLater (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) scratch (Memref.isWhole_whole _) (fun h => hz ((firstPoint_iff t).mp h))
      (win0_0.fill (grid0.coords t) d0 (iblk m c 0 t)) (iblk m c 1 t) (iblk m c 2 t) ds Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]
      · iexists _; iexact HS
      iexact Hg
    isplitl [Ho]; · iexact Ho
    isplitl [H0]; · iexists d0; iexact H0
    isplitl [H1]; · iexact H1
    isplitl [H2]; · iexact H2
    iexists _; iexact H3

/-- The body obligation, the result's window forgotten. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

set_option backward.isDefEq.respectTransparency.types false in
/-- Every weakly fair execution of @main terminates, and ends with each input array of the pipeline as the region
    found it and every other unscoped buffer as the region found it; nothing is said of the result. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget)
    (hshare := fun c => ((dats m 0 c).toRForget forgets).share_full fun _ => rfl)
    (howed := fun _ _ => rfl) (V := V m) (hmain := hmain m Variants.none) (hA := A_eq m) (hΦ := fun _ _ => rfl)

/-- The frame: the argument arrays end as they began. The row tiles' array and the second factor are inputs of the
    pipeline, never written; the first factor bypasses the region (the region stages its transposed copy). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun (((dats m 0 c).toRForget forgets).ArrAt_in 0 rfl _) _) ((h c).1 0)).trans ((A_eq m c 0).trans (V_main_arg0 m c)),
      ((h c).2 main_arg1 (Pipeline.mem_restRefs_of main_arg1 (by decide) (by decide))).trans (V_main_arg1 m c),
      (Eq.mp (congrFun (((dats m 0 c).toRForget forgets).ArrAt_in 2 rfl _) _) ((h c).1 2)).trans ((A_eq m c 2).trans (V_main_arg2 m c))⟩)
    (run_main m ρ)

end Cert.Kernel.Body

end
-- ==== Proof.KIRuns.lean ====
/-
  The kernel body of the LoRA product, run once per control case, at any float instance.

  The body has one conditional, on the grid coordinate: at the first point it loads the staged copy of the
  transposed factor (16 x 4096), transposes it back, narrows it and stores it whole into the scratch (4096 x 16);
  at every point it then loads the staged rows of `x` (832 x 4096), the scratch and the staged second factor
  (16 x 4096), and stores the product  (16 * (x . scratch)) . B  whole into the result's staging buffer.
  So there are two cases: the first point, where the scratch arrives holding anything and leaves holding the
  narrowed transpose; and the later points, where the scratch arrives holding what an earlier point left and is
  only read. Each case's run is stated on ANY whole memrefs with the inputs at given contents, and yields the
  pieces the stores leave in the result's buffer (and, in the first case, in the scratch).
-/
import proofs.«171104_g2000505684096532_pallasbulk_122_20_alg».proof.Proof.Gen.KernelIdeal.Frame
import proofs.«171104_g2000505684096532_pallasbulk_122_20_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition, as a function of the grid coordinate: "this is the first point". -/
abbrev firstPoint (i : grid0.Coords) : Prop :=
  (Scalar.cmpi .ne (Scalar.extui (Scalar.cmpi .eq (BitVec.ofNat 32 (i 0).val) 0#32)) 0#32) = 1#1

/-- It holds at point 0 and at no other of the ten points. -/
theorem firstPoint_iff : ∀ t : Fin cfg0.N, firstPoint (grid0.coords t) ↔ t.val = 0 :=
  (by decide +kernel : ∀ t : Fin grid0.N, firstPoint (grid0.coords t) ↔ t.val = 0)

set_option maxHeartbeats 1000000 in
/-- THE FIRST POINT. With the three inputs' memrefs at `x0`, `x1`, `x2`, the result's and the scratch at anything,
    the body runs and leaves the inputs as they were, the result's memref with the pieces `L3` written and the
    scratch with the pieces `LS` written; the pieces are what the run finds. -/
noncomputable def runFirst (c : Dev nD) (i : grid0.Coords) (arg1 : Memref sig .tc .vmem S832x4096 .f32) (harg1 : arg1.IsWhole) (arg2 : Memref sig .tc .vmem S16x4096 .f32) (harg2 : arg2.IsWhole) (arg3 : Memref sig .tc .vmem S16x4096 .f32) (harg3 : arg3.IsWhole) (arg4 : Memref sig .tc .vmem S832x4096 .f32) (harg4 : arg4.IsWhole) (arg5 : Memref sig .tc .vmem S4096x16 .bf16) (harg5 : arg5.IsWhole) (hc0 : firstPoint i)
    (x0 : Vec F S832x4096 .f32) (x1 : Vec F S16x4096 .f32) (x2 : Vec F S16x4096 .f32) :
    Σ' (L3 : List (View.Piece (Elt F) S832x4096 .f32)), { LS : List (View.Piece (Elt F) S4096x16 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS)) -∗ K ⟨⟩))
          ⊢ wp frame (wpE (defs₀ (F := F)) Variants.none c none) E (cc0__lora_body i arg1 harg1 arg2 harg2 arg3 harg3 arg4 harg4 arg5 harg5) K } := by
  refine ⟨?_, ?_, fun E K => ?run⟩
  case run =>
    simp only [cc0__lora_body_eq_skeleton]; unfold cc0__lora_body_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

set_option maxHeartbeats 1000000 in
/-- A LATER POINT. The scratch arrives at `xs` and is only read: the body leaves the inputs and the scratch as they
    were and the result's memref with the pieces `L3` written. -/
noncomputable def runLater (c : Dev nD) (i : grid0.Coords) (arg1 : Memref sig .tc .vmem S832x4096 .f32) (harg1 : arg1.IsWhole) (arg2 : Memref sig .tc .vmem S16x4096 .f32) (harg2 : arg2.IsWhole) (arg3 : Memref sig .tc .vmem S16x4096 .f32) (harg3 : arg3.IsWhole) (arg4 : Memref sig .tc .vmem S832x4096 .f32) (harg4 : arg4.IsWhole) (arg5 : Memref sig .tc .vmem S4096x16 .bf16) (harg5 : arg5.IsWhole) (hc0 : ¬firstPoint i)
    (x0 : Vec F S832x4096 .f32) (x1 : Vec F S16x4096 .f32) (x2 : Vec F S16x4096 .f32) (xs : Vec F S4096x16 .bf16) :
    { L3 : List (View.Piece (Elt F) S832x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xs) -∗ K ⟨⟩))
          ⊢ wp frame (wpE (defs₀ (F := F)) Variants.none c none) E (cc0__lora_body i arg1 harg1 arg2 harg2 arg3 harg3 arg4 harg4 arg5 harg5) K } := by
  refine ⟨?_, fun E K => ?run⟩
  case run =>
    simp only [cc0__lora_body_eq_skeleton]; unfold cc0__lora_body_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; isplitr; · ipureintro; exact harg5.read_unread _
    iexact HS0

end Cert.KernelIdeal.Body

end
-- ==== Proof.KIPieces.lean ====
/-
  What the body's stores leave, as values.

  Each run of the body (the first point; a later point) found ONE piece per buffer it stores into, and each piece is
  a store of a whole buffer: so what a buffer holds afterwards is that store's payload, whatever it held before.
  Read back, the payloads are: into the scratch, the narrowed transpose of the staged 16 x 4096 factor; into the
  result's buffer, the product  (16 * (rows . scratch)) . B  of the staged rows, the scratch's contents — at the
  first point the contents just stored — and the staged second factor. The two triples below restate the runs with
  those contents.
-/
import proofs.«171104_g2000505684096532_pallasbulk_122_20_alg».proof.Proof.KIRuns
import Idealize.ShloMosaic.Lib.Pipeline.Value
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The offsets of a whole-buffer access are zeros. -/
theorem offsets_zero : (![0, 0] : Fin 2 → Nat) = fun _ => 0 := funext fun a => by fin_cases a <;> rfl

/-! ## The first point -/

theorem coverFirst_out (c : Dev nD) (i : grid0.Coords) (arg1 : Memref sig .tc .vmem S832x4096 .f32) (harg1 : arg1.IsWhole) (arg2 : Memref sig .tc .vmem S16x4096 .f32) (harg2 : arg2.IsWhole) (arg3 : Memref sig .tc .vmem S16x4096 .f32) (harg3 : arg3.IsWhole) (arg4 : Memref sig .tc .vmem S832x4096 .f32) (harg4 : arg4.IsWhole) (arg5 : Memref sig .tc .vmem S4096x16 .bf16) (harg5 : arg5.IsWhole) (hc0 : firstPoint i) (x0 : Vec F S832x4096 .f32) (x1 : Vec F S16x4096 .f32) (x2 : Vec F S16x4096 .f32) (y : S832x4096.Idx) :
    ∃ pc ∈ (runFirst (F := F) c i arg1 harg1 arg2 harg2 arg3 harg3 arg4 harg4 arg5 harg5 hc0 x0 x1 x2).1, y ∈ pc.1.set :=
  View.cover_of_tiledL (runFirst (F := F) c i arg1 harg1 arg2 harg2 arg3 harg3 arg4 harg4 arg5 harg5 hc0 x0 x1 x2).1 S832x4096.size (by sl_kernel_rfl) y

theorem coverFirst_scr (c : Dev nD) (i : grid0.Coords) (arg1 : Memref sig .tc .vmem S832x4096 .f32) (harg1 : arg1.IsWhole) (arg2 : Memref sig .tc .vmem S16x4096 .f32) (harg2 : arg2.IsWhole) (arg3 : Memref sig .tc .vmem S16x4096 .f32) (harg3 : arg3.IsWhole) (arg4 : Memref sig .tc .vmem S832x4096 .f32) (harg4 : arg4.IsWhole) (arg5 : Memref sig .tc .vmem S4096x16 .bf16) (harg5 : arg5.IsWhole) (hc0 : firstPoint i) (x0 : Vec F S832x4096 .f32) (x1 : Vec F S16x4096 .f32) (x2 : Vec F S16x4096 .f32) (y : S4096x16.Idx) :
    ∃ pc ∈ (runFirst (F := F) c i arg1 harg1 arg2 harg2 arg3 harg3 arg4 harg4 arg5 harg5 hc0 x0 x1 x2).2.1, y ∈ pc.1.set :=
  View.cover_of_tiledL (runFirst (F := F) c i arg1 harg1 arg2 harg2 arg3 harg3 arg4 harg4 arg5 harg5 hc0 x0 x1 x2).2.1 S4096x16.size (by sl_kernel_rfl) y

/-- The result's buffer after the first point: the product over the scratch contents just stored. -/
theorem readFirst_out (c : Dev nD) (i : grid0.Coords) (arg1 : Memref sig .tc .vmem S832x4096 .f32) (harg1 : arg1.IsWhole) (arg2 : Memref sig .tc .vmem S16x4096 .f32) (harg2 : arg2.IsWhole) (arg3 : Memref sig .tc .vmem S16x4096 .f32) (harg3 : arg3.IsWhole) (arg4 : Memref sig .tc .vmem S832x4096 .f32) (harg4 : arg4.IsWhole) (arg5 : Memref sig .tc .vmem S4096x16 .bf16) (harg5 : arg5.IsWhole) (hc0 : firstPoint i) (x0 : Vec F S832x4096 .f32) (x1 : Vec F S16x4096 .f32) (x2 : Vec F S16x4096 .f32) (v : View sig .tc .vmem S832x4096 .f32) (f : v.ty.Contents (Elt F)) :
    v.read (Elt F) (v.writes (Elt F) f (runFirst (F := F) c i arg1 harg1 arg2 harg2 arg3 harg3 arg4 harg4 arg5 harg5 hc0 x0 x1 x2).1) = k0_pay2 x0 (k0_pay1 x1) x2 := by
  rw [View.read_writes_eq_canon _ _ _ (coverFirst_out c i arg1 harg1 arg2 harg2 arg3 harg3 arg4 harg4 arg5 harg5 hc0 x0 x1 x2)]
  unfold runFirst; dsimp only; sl_unfold_words
  rw [View.canon_unit_zero offsets_zero]
  simp only [View.readAt_eq_ld, harg1.read_unread, harg2.read_unread, harg3.read_unread,
    View.ld_unit_zero (S := S832x4096) offsets_zero, View.ld_unit_zero (S := S16x4096) offsets_zero]
  rw [View.readCov_unit_zero (S := S4096x16) arg5.view offsets_zero]

/-- The scratch after the first point: the narrowed transpose of the staged factor. -/
theorem readFirst_scr (c : Dev nD) (i : grid0.Coords) (arg1 : Memref sig .tc .vmem S832x4096 .f32) (harg1 : arg1.IsWhole) (arg2 : Memref sig .tc .vmem S16x4096 .f32) (harg2 : arg2.IsWhole) (arg3 : Memref sig .tc .vmem S16x4096 .f32) (harg3 : arg3.IsWhole) (arg4 : Memref sig .tc .vmem S832x4096 .f32) (harg4 : arg4.IsWhole) (arg5 : Memref sig .tc .vmem S4096x16 .bf16) (harg5 : arg5.IsWhole) (hc0 : firstPoint i) (x0 : Vec F S832x4096 .f32) (x1 : Vec F S16x4096 .f32) (x2 : Vec F S16x4096 .f32) (v : View sig .tc .vmem S4096x16 .bf16) (f : v.ty.Contents (Elt F)) :
    v.read (Elt F) (v.writes (Elt F) f (runFirst (F := F) c i arg1 harg1 arg2 harg2 arg3 harg3 arg4 harg4 arg5 harg5 hc0 x0 x1 x2).2.1) = k0_pay1 x1 := by
  rw [View.read_writes_eq_canon _ _ _ (coverFirst_scr c i arg1 harg1 arg2 harg2 arg3 harg3 arg4 harg4 arg5 harg5 hc0 x0 x1 x2)]
  unfold runFirst; dsimp only; sl_unfold_words
  rw [View.canon_unit_zero offsets_zero]
  simp only [View.readAt_eq_ld, harg2.read_unread, View.ld_unit_zero (S := S16x4096) offsets_zero]

/-- THE FIRST POINT, with contents: the scratch leaves holding the narrowed transpose, the result's buffer the
    product over it. -/
theorem bodyFirst (c : Dev nD) (i : grid0.Coords) (arg1 : Memref sig .tc .vmem S832x4096 .f32) (harg1 : arg1.IsWhole) (arg2 : Memref sig .tc .vmem S16x4096 .f32) (harg2 : arg2.IsWhole) (arg3 : Memref sig .tc .vmem S16x4096 .f32) (harg3 : arg3.IsWhole) (arg4 : Memref sig .tc .vmem S832x4096 .f32) (harg4 : arg4.IsWhole) (arg5 : Memref sig .tc .vmem S4096x16 .bf16) (harg5 : arg5.IsWhole) (hc0 : firstPoint i) (x0 : Vec F S832x4096 .f32) (x1 : Vec F S16x4096 .f32) (x2 : Vec F S16x4096 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (k0_pay2 x0 (k0_pay1 x1) x2) ∗ owns (c : Thread nD τ) arg5 fullShare (k0_pay1 x1)) -∗ K ⟨⟩))
      ⊢ wp frame (wpE (defs₀ (F := F)) Variants.none c none) E (cc0__lora_body i arg1 harg1 arg2 harg2 arg3 harg3 arg4 harg4 arg5 harg5) K := by
  iintro ⟨H0, H1, H2, H3, HS, Hk⟩
  iapply ((runFirst (F := F) c i arg1 harg1 arg2 harg2 arg3 harg3 arg4 harg4 arg5 harg5 hc0 x0 x1 x2).2.2 E K)
  isplitl [H0]; · iexact H0
  isplitl [H1]; · iexact H1
  isplitl [H2]; · iexact H2
  isplitl [H3]; · iexact H3
  isplitl [HS]; · iexact HS
  iintro ⟨H0, H1, H2, ⟨%e3, H3⟩, ⟨%es, HS⟩⟩
  iapply Hk
  isplitl [H0]; · iexact H0
  isplitl [H1]; · iexact H1
  isplitl [H2]; · iexact H2
  isplitl [H3]
  · unfold owns; iexists _; isplitr
    swap; · iexact H3
    ipureintro; exact readFirst_out c i arg1 harg1 arg2 harg2 arg3 harg3 arg4 harg4 arg5 harg5 hc0 x0 x1 x2 _ _
  · unfold owns; iexists _; isplitr
    swap; · iexact HS
    ipureintro; exact readFirst_scr c i arg1 harg1 arg2 harg2 arg3 harg3 arg4 harg4 arg5 harg5 hc0 x0 x1 x2 _ _

/-! ## A later point -/

theorem coverLater_out (c : Dev nD) (i : grid0.Coords) (arg1 : Memref sig .tc .vmem S832x4096 .f32) (harg1 : arg1.IsWhole) (arg2 : Memref sig .tc .vmem S16x4096 .f32) (harg2 : arg2.IsWhole) (arg3 : Memref sig .tc .vmem S16x4096 .f32) (harg3 : arg3.IsWhole) (arg4 : Memref sig .tc .vmem S832x4096 .f32) (harg4 : arg4.IsWhole) (arg5 : Memref sig .tc .vmem S4096x16 .bf16) (harg5 : arg5.IsWhole) (hc0 : ¬firstPoint i) (x0 : Vec F S832x4096 .f32) (x1 : Vec F S16x4096 .f32) (x2 : Vec F S16x4096 .f32) (xs : Vec F S4096x16 .bf16) (y : S832x4096.Idx) :
    ∃ pc ∈ (runLater (F := F) c i arg1 harg1 arg2 harg2 arg3 harg3 arg4 harg4 arg5 harg5 hc0 x0 x1 x2 xs).1, y ∈ pc.1.set :=
  View.cover_of_tiledL (runLater (F := F) c i arg1 harg1 arg2 harg2 arg3 harg3 arg4 harg4 arg5 harg5 hc0 x0 x1 x2 xs).1 S832x4096.size (by sl_kernel_rfl) y

/-- The result's buffer after a later point: the product over the scratch contents it found. -/
theorem readLater_out (c : Dev nD) (i : grid0.Coords) (arg1 : Memref sig .tc .vmem S832x4096 .f32) (harg1 : arg1.IsWhole) (arg2 : Memref sig .tc .vmem S16x4096 .f32) (harg2 : arg2.IsWhole) (arg3 : Memref sig .tc .vmem S16x4096 .f32) (harg3 : arg3.IsWhole) (arg4 : Memref sig .tc .vmem S832x4096 .f32) (harg4 : arg4.IsWhole) (arg5 : Memref sig .tc .vmem S4096x16 .bf16) (harg5 : arg5.IsWhole) (hc0 : ¬firstPoint i) (x0 : Vec F S832x4096 .f32) (x1 : Vec F S16x4096 .f32) (x2 : Vec F S16x4096 .f32) (xs : Vec F S4096x16 .bf16) (v : View sig .tc .vmem S832x4096 .f32) (f : v.ty.Contents (Elt F)) :
    v.read (Elt F) (v.writes (Elt F) f (runLater (F := F) c i arg1 harg1 arg2 harg2 arg3 harg3 arg4 harg4 arg5 harg5 hc0 x0 x1 x2 xs).1) = k0_pay2 x0 xs x2 := by
  rw [View.read_writes_eq_canon _ _ _ (coverLater_out c i arg1 harg1 arg2 harg2 arg3 harg3 arg4 harg4 arg5 harg5 hc0 x0 x1 x2 xs)]
  unfold runLater; dsimp only; sl_unfold_words
  rw [View.canon_unit_zero offsets_zero]
  simp only [View.readAt_eq_ld, harg1.read_unread, harg3.read_unread, harg5.read_unread,
    View.ld_unit_zero (S := S832x4096) offsets_zero, View.ld_unit_zero (S := S16x4096) offsets_zero,
    View.ld_unit_zero (S := S4096x16) offsets_zero]

/-- A LATER POINT, with contents: the scratch is kept, the result's buffer leaves holding the product over it. -/
theorem bodyLater (c : Dev nD) (i : grid0.Coords) (arg1 : Memref sig .tc .vmem S832x4096 .f32) (harg1 : arg1.IsWhole) (arg2 : Memref sig .tc .vmem S16x4096 .f32) (harg2 : arg2.IsWhole) (arg3 : Memref sig .tc .vmem S16x4096 .f32) (harg3 : arg3.IsWhole) (arg4 : Memref sig .tc .vmem S832x4096 .f32) (harg4 : arg4.IsWhole) (arg5 : Memref sig .tc .vmem S4096x16 .bf16) (harg5 : arg5.IsWhole) (hc0 : ¬firstPoint i) (x0 : Vec F S832x4096 .f32) (x1 : Vec F S16x4096 .f32) (x2 : Vec F S16x4096 .f32) (xs : Vec F S4096x16 .bf16) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg4 fullShare (k0_pay2 x0 xs x2) ∗ owns (c : Thread nD τ) arg5 fullShare xs) -∗ K ⟨⟩))
      ⊢ wp frame (wpE (defs₀ (F := F)) Variants.none c none) E (cc0__lora_body i arg1 harg1 arg2 harg2 arg3 harg3 arg4 harg4 arg5 harg5) K := by
  iintro ⟨H0, H1, H2, H3, HS, Hk⟩
  iapply ((runLater (F := F) c i arg1 harg1 arg2 harg2 arg3 harg3 arg4 harg4 arg5 harg5 hc0 x0 x1 x2 xs).2 E K)
  isplitl [H0]; · iexact H0
  isplitl [H1]; · iexact H1
  isplitl [H2]; · iexact H2
  isplitl [H3]; · iexact H3
  isplitl [HS]; · iexact HS
  iintro ⟨H0, H1, H2, ⟨%e3, H3⟩, HS⟩
  iapply Hk
  isplitl [H0]; · iexact H0
  isplitl [H1]; · iexact H1
  isplitl [H2]; · iexact H2
  isplitl [H3]
  · unfold owns; iexists _; isplitr
    swap; · iexact H3
    ipureintro; exact readLater_out c i arg1 harg1 arg2 harg2 arg3 harg3 arg4 harg4 arg5 harg5 hc0 x0 x1 x2 xs _ _
  · iexact HS

end Cert.KernelIdeal.Body

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LoraSpec.lean ====
/-
  The LoRA product  y = 16 · (x · A) · B  over the extended reals, entry by entry, and the one law that joins its
  two arrangements.

  With x an 8192 × 4096 matrix, A a 4096 × 16 matrix and B a 16 × 4096 matrix, entry (i, j) of the result is

      Σ_r (16 · Σ_k x(i, k) · A(k, r)) · B(r, j)

  when the scale is applied to the rank-16 intermediate, and

      Σ_r (Σ_k x(i, k) · A(k, r)) · (16 · B(r, j))

  when it is folded into the second factor. Term by term these agree by commutativity and associativity of the
  product alone, which hold on all of the extended reals: no distributivity is used, so no entry needs to be finite.
  The scale is kept as the float word both programs carry; its value is never needed.
-/
import Idealize.ShloMosaic.PureOps.Ideal
import Idealize.ShloMosaic.Lib.ValueIdx

noncomputable section

namespace Cert.Lora

open Idealize.ShloMosaic Idealize.ShloMosaic.ValueIdx

/-- The scale 16.0, as the f32 word of both programs. -/
abbrev sixteen : EReal := Ideal.ofBits .f32 0x41800000#32

/-- Row `i` of `x` against column `r` of `A`: the rank-16 intermediate's entry (i, r). -/
def xa (x : (⟨2, ![8192, 4096]⟩ : Shape).Idx → EReal) (A : (⟨2, ![4096, 16]⟩ : Shape).Idx → EReal)
    (i : Fin 8192) (r : Fin 16) : EReal :=
  ∑ k : Fin 4096, x (ix2 i k) * A (ix2 k r)

/-- The product with the scale on the intermediate: entry `j = (i, e)` is  Σ_r (16 · xa(i, r)) · B(r, e). -/
def lora (x : (⟨2, ![8192, 4096]⟩ : Shape).Idx → EReal) (A : (⟨2, ![4096, 16]⟩ : Shape).Idx → EReal)
    (B : (⟨2, ![16, 4096]⟩ : Shape).Idx → EReal) : (⟨2, ![8192, 4096]⟩ : Shape).Idx → EReal :=
  fun j => ∑ r : Fin 16, (sixteen * xa x A (j 0) r) * B (ix2 r (j 1))

/-- A scale on the left factor of a product may be moved onto the right factor. -/
theorem scale_moves (c s b : EReal) : (c * s) * b = s * (c * b) := by
  rw [mul_comm c s, mul_assoc]

/-- The same product with the scale folded into the second factor. -/
theorem lora_eq_scaled_second (x : (⟨2, ![8192, 4096]⟩ : Shape).Idx → EReal) (A : (⟨2, ![4096, 16]⟩ : Shape).Idx → EReal)
    (B : (⟨2, ![16, 4096]⟩ : Shape).Idx → EReal) (j : (⟨2, ![8192, 4096]⟩ : Shape).Idx) :
    lora x A B j = ∑ r : Fin 16, xa x A (j 0) r * (sixteen * B (ix2 r (j 1))) :=
  Finset.sum_congr rfl fun r _ => scale_moves _ _ _

end Cert.Lora

end
-- ==== Proof.KIValue.lean ====
/-
  The body's two payloads at the ideal values, entry by entry.

  At the extended reals a change of float format is the identity, a transpose reads the operand at the swapped
  coordinates, and a matrix product into the zero accumulator is the plain sum of products. So the scratch's payload,
  the narrowed transpose of a 16 x 4096 block `a`, is at (k, r) the entry a(r, k); and the result's payload, of a
  row block `x` (832 x 4096), scratch contents `s` (4096 x 16) and a block `b` (16 x 4096), is at (p, e)

      Σ_r (16 · Σ_k x(p, k) · s(k, r)) · b(r, e).

  Row p of the result depends on row p of `x` only.
-/
import proofs.«171104_g2000505684096532_pallasbulk_122_20_alg».proof.Proof.Gen.KernelIdeal.Skeleton
import proofs.«171104_g2000505684096532_pallasbulk_122_20_alg».proof.Proof.LibPlainMatmul
import proofs.«171104_g2000505684096532_pallasbulk_122_20_alg».proof.Proof.LoraSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen
open Idealize.ShloMosaic Idealize.ShloMosaic.ValueIdx

/-- The scratch's payload at (k, r): the staged block at (r, k). -/
theorem pay1_apply (a : Vec Ideal S16x4096 .f32) (k : Fin 4096) (r : Fin 16) :
    k0_pay1 (F := Ideal) a (ix2 k r) = a (ix2 r k) := by
  unfold k0_pay1
  simp only [shapeCast_self]
  exact transpose_ix2_apply (a := 16) (b := 4096) a _ k r

/-- The result's payload at (p, e): the double sum, the scale on the inner one. -/
theorem pay2_apply (x : Vec Ideal S832x4096 .f32) (s : Vec Ideal S4096x16 .bf16) (b : Vec Ideal S16x4096 .f32)
    (p : Fin 832) (e : Fin 4096) :
    k0_pay2 (F := Ideal) x s b (ix2 p e)
      = ∑ r : Fin 16, (Cert.Lora.sixteen * ∑ k : Fin 4096, x (ix2 p k) * s (ix2 k r)) * b (ix2 r e) := by
  unfold k0_pay2
  refine (matmul_plain_zero_apply 832 16 4096 none _ _ p e).trans ?_
  refine Finset.sum_congr rfl fun r _ => ?_
  refine congrArg (· * b (ix2 r e)) ?_
  refine congrArg (Cert.Lora.sixteen * ·) ?_
  exact matmul_plain_zero_apply 832 4096 16 none _ _ p r

end Cert.KernelIdeal.Body

end
-- ==== Proof.KIData.lean ====
/-
  The idealized kernel's result array is the LoRA product of its arguments.

  The grid has ten points; point t stages rows 832·t … of `x` (the last tile, at t = 9, has only 704 rows inside the
  array and overhangs it by 128) and writes back the same rows of the result; both factors are staged whole, the
  first one transposed by a host operation before the region. The scratch is stored at point 0 and only read
  afterwards, so after EVERY point it holds the same thing: the narrowed transpose of the staged transposed factor,
  which entry by entry is the first factor `A` itself. What point t leaves in the result's buffer is, on the rows
  inside the array, rows 832·t … of the product  Σ_r (16 · Σ_k x(i,k)·A(k,r)) · B(r,j): row p of the buffer depends on
  row p of the staged tile only, so whatever the overhanging rows of the last tile hold never reaches a row that is
  written back. The ten tiles cover the array (row i is in tile i / 832), so the array ends holding the product.
-/
import proofs.«171104_g2000505684096532_pallasbulk_122_20_alg».proof.Proof.KIPieces
import proofs.«171104_g2000505684096532_pallasbulk_122_20_alg».proof.Proof.KIValue
import Idealize.ShloMosaic.Lib.Pipeline.Kit
import Idealize.ShloMosaic.Lib.Pipeline.Value
import Idealize.ShloMosaic.Lib.StableHlo.Run
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx

variable (m : (ℓ : Loc nD τ sig) → Buf (Elt Ideal) ℓ) (ρ : Dev nD → PrngReg)

/-- The scratch, as the whole buffer the body is handed. -/
abbrev scratch : Memref sig .tc .vmem S4096x16 .bf16 := Memref.whole cc0_scratch0

/-- What the region holds beside the windows: the scratch at some contents, and the generator register. -/
theorem rest_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-! ## The arguments and the product -/

abbrev argX (c : Dev nD) : S8192x4096.Idx → EReal := m ((c : Thread nD τ).loc main_arg0)
abbrev argA (c : Dev nD) : S4096x16.Idx → EReal := m ((c : Thread nD τ).loc main_arg1)
abbrev argB (c : Dev nD) : S16x4096.Idx → EReal := m ((c : Thread nD τ).loc main_arg2)

/-- The product of core `c`'s three argument arrays. -/
def product (c : Dev nD) : Buf (Elt Ideal) ((c : Thread nD τ).loc main_v1) :=
  Cert.Lora.lora (argX m c) (argA m c) (argB m c)

/-! ## The schedule, decided over the ten points -/

theorem grid_facts : ∀ t : Fin cfg0.N,
    win0_0.index t (0 : Fin 2) = t.val ∧ win0_0.index t (1 : Fin 2) = 0
    ∧ win0_3.index t (0 : Fin 2) = t.val ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_0.xsize (grid0.coords t) (0 : Fin 2) = win0_3.xsize (grid0.coords t) (0 : Fin 2)
    ∧ win0_0.xsize (grid0.coords t) (1 : Fin 2) = 4096
    ∧ win0_3.xsize (grid0.coords t) (1 : Fin 2) = 4096
    ∧ (t.val < 9 → win0_3.xsize (grid0.coords t) (0 : Fin 2) = 832)
    ∧ (t.val = 9 → win0_3.xsize (grid0.coords t) (0 : Fin 2) = 704)
    ∧ t.val < 10 :=
  (by decide +kernel : ∀ t : Fin grid0.N, _)

/-! ## The staged blocks, read at an index -/

/-- The host operation before the region: the staged first factor is `A` transposed. -/
theorem staged_factor (c : Dev nD) :
    (V m c main_v0 : S16x4096.Idx → EReal) = transpose S16x4096 [1, 0] (argA m c) Facts₀.transposes_S4096x16_S16x4096_1_0 := by
  dsimp only [V, hostOps0]; after_results

/-- The staged transposed factor at (r, k) is A(k, r), at every point. -/
theorem factorT_apply (c : Dev nD) (t : Fin cfg0.N) (r : Fin 16) (k : Fin 4096) :
    iblk m c 1 t (ix2 r k) = argA m c (ix2 k r) := by
  obtain ⟨-, -, -, -, e4, e5, -⟩ := grid_facts t
  unfold iblk
  show V m c main_v0 (((cfg0.win 1).blk t).view.emb (ix2 r k)) = _
  have he : ((cfg0.win 1).blk t).view.emb (ix2 r k) = ix2 r k := by
    funext a; apply Fin.ext
    match a with
    | ⟨0, _⟩ => show win0_1.index t (0 : Fin 2) * 16 + 1 * r.val = r.val; omega
    | ⟨1, _⟩ => show win0_1.index t (1 : Fin 2) * 4096 + 1 * k.val = k.val; omega
  rw [he, staged_factor]
  exact transpose_ix2_apply (a := 4096) (b := 16) (argA m c) _ r k

/-- The staged second factor at (r, e) is B(r, e), at every point. -/
theorem factorB_apply (c : Dev nD) (t : Fin cfg0.N) (r : Fin 16) (e : Fin 4096) :
    iblk m c 2 t (ix2 r e) = argB m c (ix2 r e) := by
  obtain ⟨-, -, -, -, -, -, e6, e7, -⟩ := grid_facts t
  unfold iblk
  show V m c main_arg2 (((cfg0.win 2).blk t).view.emb (ix2 r e)) = _
  have he : ((cfg0.win 2).blk t).view.emb (ix2 r e) = ix2 r e := by
    funext a; apply Fin.ext
    match a with
    | ⟨0, _⟩ => show win0_2.index t (0 : Fin 2) * 16 + 1 * r.val = r.val; omega
    | ⟨1, _⟩ => show win0_2.index t (1 : Fin 2) * 4096 + 1 * e.val = e.val; omega
  rw [he, V_main_arg2]

/-- A staged row tile, whatever lies below the array's end, read at an entry `b` inside the array: the entry of `x`
    at the tile's offset. -/
theorem tile_apply (c : Dev nD) (t : Fin cfg0.N) (d : S832x4096.Idx → EReal) (b : S832x4096.Idx)
    (hb : ∀ a, (b a).val < win0_0.xsize (grid0.coords t) a) (i : S8192x4096.Idx)
    (h0 : (i 0).val = win0_0.index t (0 : Fin 2) * 832 + (b 0).val)
    (h1 : (i 1).val = win0_0.index t (1 : Fin 2) * 4096 + (b 1).val) :
    win0_0.fill (grid0.coords t) d (iblk m c 0 t) b = argX m c i := by
  unfold Window.fill
  rw [dif_pos ((win0_0.moved_iff _ b).mpr hb)]
  unfold iblk
  show V m c main_arg0 (((cfg0.win 0).blk t).view.emb _) = _
  rw [V_main_arg0]
  refine congrArg _ (funext fun a => Fin.ext ?_)
  match a with
  | ⟨0, _⟩ => show win0_0.index t (0 : Fin 2) * 832 + 1 * (b 0).val = (i 0).val; omega
  | ⟨1, _⟩ => show win0_0.index t (1 : Fin 2) * 4096 + 1 * (b 1).val = (i 1).val; omega

/-! ## What the scratch holds after every point -/

/-- The narrowed transpose of the staged transposed factor (as point 0 stages it). -/
def held (c : Dev nD) : Vec Ideal S4096x16 .bf16 := k0_pay1 (F := Ideal) (iblk m c 1 t0_0)

/-- Entry by entry it is `A`. -/
theorem held_apply (c : Dev nD) (k : Fin 4096) (r : Fin 16) : held m c (ix2 k r) = argA m c (ix2 k r) :=
  (pay1_apply _ k r).trans (factorT_apply m c t0_0 r k)

/-! ## What a point leaves in the result's buffer, on the rows inside the array -/

/-- Rows 832·t … of the product: the body's payload of the staged tile (anything below the array's end), the scratch's
    contents and the staged second factor, cut to the rows that are written back. -/
theorem tile_computed (c : Dev nD) (t : Fin cfg0.N) (d : S832x4096.Idx → EReal) :
    win0_3.cut (grid0.coords t) (k0_pay2 (F := Ideal) (win0_0.fill (grid0.coords t) d (iblk m c 0 t)) (held m c) (iblk m c 2 t))
      = ((cfg0.win 3).blk t).view.read (Elt Ideal) (product m c) := by
  obtain ⟨e0, e1, e2, e3, -, -, -, -, e8, e9, e10, -⟩ := grid_facts t
  funext j
  have hj0 : (j (0 : Fin 2)).val < win0_3.xsize (grid0.coords t) (0 : Fin 2) := (j (0 : Fin 2)).isLt
  have hj1 : (j (1 : Fin 2)).val < win0_3.xsize (grid0.coords t) (1 : Fin 2) := (j (1 : Fin 2)).isLt
  show k0_pay2 (F := Ideal) _ _ _ (win0_3.xinj (grid0.coords t) j) = product m c (((cfg0.win 3).blk t).view.emb j)
  obtain ⟨p, e, hpe, hp, he⟩ : ∃ (p : Fin 832) (e : Fin 4096), win0_3.xinj (grid0.coords t) j = ix2 p e
      ∧ p.val = (j (0 : Fin 2)).val ∧ e.val = (j (1 : Fin 2)).val :=
    ⟨win0_3.xinj (grid0.coords t) j (0 : Fin 2), win0_3.xinj (grid0.coords t) j (1 : Fin 2),
      eq_ix2 (n0 := 832) (n1 := 4096) _, rfl, rfl⟩
  rw [hpe, pay2_apply]
  unfold product Cert.Lora.lora Cert.Lora.xa
  refine Finset.sum_congr rfl fun r _ => ?_
  refine congrArg₂ (· * ·) (congrArg (Cert.Lora.sixteen * ·) (Finset.sum_congr rfl fun k _ => ?_)) ?_
  · rw [held_apply]
    refine congrArg (· * argA m c (ix2 k r)) ?_
    refine tile_apply m c t d (ix2 p k) (fun a => ?_) _ ?_ ?_
    · match a with
      | ⟨0, _⟩ => show p.val < win0_0.xsize (grid0.coords t) (0 : Fin 2); omega
      | ⟨1, _⟩ => show k.val < win0_0.xsize (grid0.coords t) (1 : Fin 2); omega
    · show win0_3.index t (0 : Fin 2) * 832 + 1 * (j (0 : Fin 2)).val = win0_0.index t (0 : Fin 2) * 832 + p.val
      omega
    · show k.val = win0_0.index t (1 : Fin 2) * 4096 + k.val
      omega
  · refine (factorB_apply m c t r e).trans (congrArg (argB m c) ?_)
    funext a; apply Fin.ext
    match a with
    | ⟨0, _⟩ => rfl
    | ⟨1, _⟩ => show e.val = win0_3.index t (1 : Fin 2) * 4096 + 1 * (j (1 : Fin 2)).val; omega

/-! ## The proof data -/

/-- The region's invariant before position `n`: before the first point the scratch holds anything; afterwards it
    holds `held`. The generator register is at some state throughout. -/
def carried (c : Dev nD) : ℕ → sProp 𝕄
  | 0 => Pipeline.ΦA spec0 c
  | _ + 1 => iprop(iprop(owns (c : Thread nD τ) scratch fullShare (held m c)) ∗ (∃ r, prngReg c r))

theorem carried_zero (c : Dev nD) (n : ℕ) (hz : n = 0) : carried m c n = Pipeline.ΦA spec0 c := by subst hz; rfl
theorem carried_pos (c : Dev nD) (n : ℕ) (hz : n ≠ 0) :
    carried m c n = iprop(iprop(owns (c : Thread nD τ) scratch fullShare (held m c)) ∗ (∃ r, prngReg c r)) := by
  cases n with
  | zero => exact absurd rfl hz
  | succ n => rfl

/-- The proof data on core `c`: after the body each input's buffer holds its block (the row tile's on the rows inside
    the array), the result's buffer rows 832·t … of the product on the rows inside the array. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => iblk m c 2 t
    | ⟨3, _⟩ => win0_3.fill (grid0.coords t) (fun _ => (0 : EReal)) (((cfg0.win 3).blk t).view.read (Elt Ideal) (product m c))
  Φ t := carried m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) :
    (dats m 0 c).after 0 t = win0_0.fill (grid0.coords t) (fun _ => (0 : EReal)) (iblk m c 0 t) := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = win0_3.fill (grid0.coords t) (fun _ => (0 : EReal)) (((cfg0.win 3).blk t).view.read (Elt Ideal) (product m c)) := by
  dsimp only [dats]

theorem before_0 (c : Dev nD) (t : Fin cfg0.N) (d) :
    (dats m 0 c).before 0 t d = win0_0.fill (grid0.coords t) d (iblk m c 0 t) :=
  ((dats m 0 c).before_fetched 0 t (fetch0_0 t) d).trans (by unfold Dat.fetched Dat.blockOf iblk; rfl)
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body obligation -/

set_option maxHeartbeats 1600000 in
/-- The body at any point. At the first point the scratch arrives at anything and leaves holding `held`; at a later
    point it arrives and leaves holding `held`. Either way the result's buffer leaves holding the payload of the
    staged tile, `held` and the staged second factor, which on the rows inside the array is the product's tile. -/
theorem sound_body (c : Dev nD) (t : Fin cfg0.N) :
    iprop((dats m 0 c).Φ t.castSucc ∗ (dats m 0 c).owesAt () t.castSucc
        ∗ (∃ d, owns (c : Thread nD τ) (win0_0.stage (cfg0.slots t 0)) fullShare ((dats m 0 c).before 0 t d))
        ∗ (∃ d, owns (c : Thread nD τ) (win0_1.stage (cfg0.slots t 1)) fullShare ((dats m 0 c).before 1 t d))
        ∗ (∃ d, owns (c : Thread nD τ) (win0_2.stage (cfg0.slots t 2)) fullShare ((dats m 0 c).before 2 t d))
        ∗ (∃ d, owns (c : Thread nD τ) (win0_3.stage (cfg0.slots t 3)) fullShare ((dats m 0 c).before 3 t d)))
      ⊢ wp frame (wpE (defs₀ (F := Ideal)) Variants.none c none) Set.univ (bodyAt0 t) (fun _ =>
          iprop((dats m 0 c).Φ t.succ ∗ (dats m 0 c).owesAt () t.succ
            ∗ (∃ d, owns (c : Thread nD τ) (win0_0.stage (cfg0.slots t 0)) fullShare
                (win0_0.fill (grid0.coords t) d (win0_0.cut (grid0.coords t) ((dats m 0 c).after 0 t))))
            ∗ owns (c : Thread nD τ) (win0_1.stage (cfg0.slots t 1)) fullShare ((dats m 0 c).after 1 t)
            ∗ owns (c : Thread nD τ) (win0_2.stage (cfg0.slots t 2)) fullShare ((dats m 0 c).after 2 t)
            ∗ (∃ d, owns (c : Thread nD τ) (win0_3.stage (cfg0.slots t 3)) fullShare
                (win0_3.fill (grid0.coords t) d (win0_3.cut (grid0.coords t) ((dats m 0 c).after 3 t)))))) := by
  unfold bodyAt0
  simp only [before_0, before_1, before_2]
  rw [show (dats m 0 c).owesAt () t.succ = (dats m 0 c).owesAt () t.castSucc from rfl, after_0, after_1, after_2, after_3,
    win0_0.cut_fill, win0_3.cut_fill]
  rw [show (dats m 0 c).Φ t.succ = carried m c (t.val + 1) from rfl,
    show (dats m 0 c).Φ t.castSucc = carried m c t.val from rfl, carried_pos m c (t.val + 1) (Nat.succ_ne_zero _)]
  by_cases hz : t.val = 0
  · obtain rfl : t = t0_0 := Fin.ext hz
    rw [carried_zero m c _ hz, rest_eq]
    iintro ⟨⟨HS, Hg⟩, Ho, ⟨%d0, H0⟩, ⟨%d1, H1⟩, ⟨%d2, H2⟩, ⟨%d3, H3⟩⟩
    iapply (bodyFirst (F := Ideal) c (grid0.coords t0_0) (win0_0.stage (cfg0.slots t0_0 0)) (hstage0_0 ((cfg0.slots t0_0 0).cast nbuf0_0)) (win0_1.stage (cfg0.slots t0_0 1)) (hstage0_1 ((cfg0.slots t0_0 1).cast nbuf0_1)) (win0_2.stage (cfg0.slots t0_0 2)) (hstage0_2 ((cfg0.slots t0_0 2).cast nbuf0_2)) (win0_3.stage (cfg0.slots t0_0 3)) (hstage0_3 ((cfg0.slots t0_0 3).cast nbuf0_3)) scratch (Memref.isWhole_whole _) ((firstPoint_iff t0_0).mpr hz)
      (win0_0.fill (grid0.coords t0_0) d0 (iblk m c 0 t0_0)) (iblk m c 1 t0_0) (iblk m c 2 t0_0) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]
      · iexact HS
      iexact Hg
    isplitl [Ho]; · iexact Ho
    isplitl [H0]; · iexists d0; iexact H0
    isplitl [H1]; · iexact H1
    isplitl [H2]; · iexact H2
    iexists (k0_pay2 (F := Ideal) (win0_0.fill (grid0.coords t0_0) d0 (iblk m c 0 t0_0)) (held m c) (iblk m c 2 t0_0))
    rw [← tile_computed m c t0_0 d0, win0_3.fill_cut]
    iexact H3
  · rw [carried_pos m c _ hz]
    iintro ⟨⟨HS, Hg⟩, Ho, ⟨%d0, H0⟩, ⟨%d1, H1⟩, ⟨%d2, H2⟩, ⟨%d3, H3⟩⟩
    iapply (bodyLater (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) scratch (Memref.isWhole_whole _) (fun h => hz ((firstPoint_iff t).mp h))
      (win0_0.fill (grid0.coords t) d0 (iblk m c 0 t)) (iblk m c 1 t) (iblk m c 2 t) (held m c) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]
      · iexact HS
      iexact Hg
    isplitl [Ho]; · iexact Ho
    isplitl [H0]; · iexists d0; iexact H0
    isplitl [H1]; · iexact H1
    isplitl [H2]; · iexact H2
    iexists (k0_pay2 (F := Ideal) (win0_0.fill (grid0.coords t) d0 (iblk m c 0 t)) (held m c) (iblk m c 2 t))
    rw [← tile_computed m c t d0, win0_3.fill_cut]
    iexact H3

/-- The library's body obligation, at every point (the row tiles' and the result's windows stated on the rows their
    transfers move). -/
theorem body_obligation (c : Dev nD) :
    BodyObligationLoose (dats m 0 c) (defs₀ (F := Ideal)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = carried m c 0 from rfl, carried_zero m c 0 rfl]
  try exact Idealize.SL.BI.Entails.refl _

theorem hout (c : Dev nD) : (dats m 0 c).Φ (Fin.last cfg0.N) ⊢ Pipeline.ΦA spec0 c := by
  rw [show (dats m 0 c).Φ (Fin.last cfg0.N) = carried m c cfg0.N from rfl,
    carried_pos m c _ (by have : cfg0.N = 10 := N_0; omega), rest_eq]
  iintro ⟨HS, Hg⟩
  isplitl [HS]
  · iexists _; iexact HS
  iexact Hg

/-! ## The run -/

set_option backward.isDefEq.respectTransparency.types false in
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

/-! ## The result array -/

/-- What point `t` writes back is rows 832·t … of the product. -/
theorem flushed_eq (c : Dev nD) (t : Fin cfg0.N) :
    (dats m 0 c).flushed 3 t = ((cfg0.win 3).blk t).view.read (Elt Ideal) (product m c) := by
  show (cfg0.win 3).cut (grid0.coords t) ((dats m 0 c).after 3 t) = _
  rw [after_3]
  exact win0_3.cut_fill _ _ _

/-- An index of the array is in point `t`'s tile iff each coordinate is in the tile's range inside the array. -/
theorem mem_tile (t : Fin cfg0.N) (i : S8192x4096.Idx) :
    i ∈ ((cfg0.win 3).blk t).view.set ↔ ∀ a : Fin 2, win0_3.index t a * S832x4096.size a ≤ (i a).val
      ∧ (i a).val < win0_3.index t a * S832x4096.size a + win0_3.xsize (grid0.coords t) a := by
  show i ∈ ((View.whole main_v1).slice (win0_3.rect t)).set ↔ _
  rw [View.set_slice_whole, Rect.mem_set_unit]
  exact Iff.rfl

/-- Row i is in the tile of point i / 832. -/
theorem covered (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 10 := N_0
  let t : Fin cfg0.N := ⟨(i 0).val / 832, by omega⟩
  have ht : t.val = (i 0).val / 832 := rfl
  obtain ⟨-, -, e2, e3, -, -, -, -, -, -, e10, e11, e12, -⟩ := grid_facts t
  refine ⟨t, flush0_3 t, (mem_tile t i).mpr fun a => ?_⟩
  match a with
  | ⟨0, _⟩ =>
    show win0_3.index t (0 : Fin 2) * 832 ≤ (i 0).val ∧ (i 0).val < win0_3.index t (0 : Fin 2) * 832 + win0_3.xsize (grid0.coords t) (0 : Fin 2)
    rcases Nat.lt_or_ge t.val 9 with h | h
    · have := e11 h; omega
    · have := e12 (by omega); omega
  | ⟨1, _⟩ =>
    show win0_3.index t (1 : Fin 2) * 4096 ≤ (i 1).val ∧ (i 1).val < win0_3.index t (1 : Fin 2) * 4096 + win0_3.xsize (grid0.coords t) (1 : Fin 2)
    omega

/-- The result array after the run is the product. -/
theorem final (c : Dev nD) : (dats m 0 c).arrAt 3 cfg0.N = product m c :=
  (dats m 0 c).arrAt_eq_of_cover 3 (product m c) (fun t _ => flushed_eq m c t) covered

/-- The idealized kernel runs, ends with its result array at the product of its arguments, and leaves the arguments
    as they were. -/
theorem run : θ_run defs (onTc (τ := τ) (main (F := Ideal))) ⟨m, fun _ => 0, ρ⟩ (fun r => ∀ c : Dev nD,
      r.2.mem ((c.tc : Thread nD τ).loc main_v1) = product m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c)))⟩)
    (run_main m ρ)

/-- The frame alone. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.RPieces.lean ====
/-
  What the reference kernel's stores leave, as values.

  The reference's body also has one conditional, on the second grid coordinate: at the first column tile of a row of
  tiles it stores the product of the staged rows of `x` (1024 x 4096) and the staged first factor (4096 x 16) whole
  into its scratch (1024 x 16); at every point it stores the product of the scratch and the staged column tile of
  the scaled second factor (16 x 512) whole into the result's buffer (1024 x 512). Each case's run found one piece
  per buffer stored into, each a store of a whole buffer: read back, the pieces are these payloads.
-/
import proofs.«171104_g2000505684096532_pallasbulk_122_20_alg».proof.Proof.Gen.ReferenceIdeal.Frame
import Idealize.ShloMosaic.Lib.Pipeline.Value
set_option maxRecDepth 16384

noncomputable section

namespace Cert.ReferenceIdeal.RefValue

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The offsets of a whole-buffer access are zeros. -/
theorem offsets_zero : (![0, 0] : Fin 2 → Nat) = fun _ => 0 := funext fun a => by fin_cases a <;> rfl

/-- The scratch after a first column tile: the rows times the first factor. -/
theorem scratch_first (c : Dev nD) (i : grid0.Coords) (arg2 : Memref sig .tc .vmem S1024x4096 .f32) (harg2 : arg2.IsWhole) (arg3 : Memref sig .tc .vmem S4096x16 .f32) (harg3 : arg3.IsWhole) (arg4 : Memref sig .tc .vmem S16x512 .f32) (harg4 : arg4.IsWhole) (arg5 : Memref sig .tc .vmem S1024x512 .f32) (harg5 : arg5.IsWhole) (arg6 : Memref sig .tc .vmem S1024x16 .f32) (harg6 : arg6.IsWhole) (hc0 : cond0_0 i) (x0 : Vec F S1024x4096 .f32) (x1 : Vec F S4096x16 .f32) (x2 : Vec F S16x512 .f32) :
    sout0_A_0 (F := F) c i arg2 harg2 arg3 harg3 arg4 harg4 arg5 harg5 arg6 harg6 hc0 x0 x1 x2 = k0_pay1 x0 x1 := by
  unfold sout0_A_0
  rw [View.read_writes_eq_canon _ _ _ (scover0_A_0 c i arg2 harg2 arg3 harg3 arg4 harg4 arg5 harg5 arg6 harg6 hc0 x0 x1 x2)]
  unfold kernelRun0_A; dsimp only; sl_unfold_words
  rw [View.canon_unit_zero offsets_zero]
  simp only [View.readAt_eq_ld, harg2.read_unread, harg3.read_unread,
    View.ld_unit_zero (S := S1024x4096) offsets_zero, View.ld_unit_zero (S := S4096x16) offsets_zero]

/-- The result's buffer after a first column tile: the scratch just stored times the staged column tile. -/
theorem out_first (c : Dev nD) (i : grid0.Coords) (arg2 : Memref sig .tc .vmem S1024x4096 .f32) (harg2 : arg2.IsWhole) (arg3 : Memref sig .tc .vmem S4096x16 .f32) (harg3 : arg3.IsWhole) (arg4 : Memref sig .tc .vmem S16x512 .f32) (harg4 : arg4.IsWhole) (arg5 : Memref sig .tc .vmem S1024x512 .f32) (harg5 : arg5.IsWhole) (arg6 : Memref sig .tc .vmem S1024x16 .f32) (harg6 : arg6.IsWhole) (hc0 : cond0_0 i) (x0 : Vec F S1024x4096 .f32) (x1 : Vec F S4096x16 .f32) (x2 : Vec F S16x512 .f32) :
    out0_A_3 (F := F) c i arg2 harg2 arg3 harg3 arg4 harg4 arg5 harg5 arg6 harg6 hc0 x0 x1 x2 = k0_pay2 (k0_pay1 x0 x1) x2 := by
  unfold out0_A_3
  rw [View.read_writes_eq_canon _ _ _ (cover0_A_3 c i arg2 harg2 arg3 harg3 arg4 harg4 arg5 harg5 arg6 harg6 hc0 x0 x1 x2)]
  unfold kernelRun0_A; dsimp only; sl_unfold_words
  rw [View.canon_unit_zero offsets_zero]
  simp only [View.readAt_eq_ld, harg2.read_unread, harg3.read_unread, harg4.read_unread,
    View.ld_unit_zero (S := S1024x4096) offsets_zero, View.ld_unit_zero (S := S4096x16) offsets_zero,
    View.ld_unit_zero (S := S16x512) offsets_zero]
  rw [View.readCov_unit_zero (S := S1024x16) arg6.view offsets_zero]

/-- The result's buffer after a later column tile: the scratch as found times the staged column tile. -/
theorem out_later (c : Dev nD) (i : grid0.Coords) (arg2 : Memref sig .tc .vmem S1024x4096 .f32) (harg2 : arg2.IsWhole) (arg3 : Memref sig .tc .vmem S4096x16 .f32) (harg3 : arg3.IsWhole) (arg4 : Memref sig .tc .vmem S16x512 .f32) (harg4 : arg4.IsWhole) (arg5 : Memref sig .tc .vmem S1024x512 .f32) (harg5 : arg5.IsWhole) (arg6 : Memref sig .tc .vmem S1024x16 .f32) (harg6 : arg6.IsWhole) (hc0 : ¬cond0_0 i) (x0 : Vec F S1024x4096 .f32) (x1 : Vec F S4096x16 .f32) (x2 : Vec F S16x512 .f32) (xs0 : Vec F S1024x16 .f32) :
    out0_B_3 (F := F) c i arg2 harg2 arg3 harg3 arg4 harg4 arg5 harg5 arg6 harg6 hc0 x0 x1 x2 xs0 = k0_pay2 xs0 x2 := by
  unfold out0_B_3
  rw [View.read_writes_eq_canon _ _ _ (cover0_B_3 c i arg2 harg2 arg3 harg3 arg4 harg4 arg5 harg5 arg6 harg6 hc0 x0 x1 x2 xs0)]
  unfold kernelRun0_B; dsimp only; sl_unfold_words
  rw [View.canon_unit_zero offsets_zero]
  simp only [View.readAt_eq_ld, harg4.read_unread, harg6.read_unread,
    View.ld_unit_zero (S := S16x512) offsets_zero, View.ld_unit_zero (S := S1024x16) offsets_zero]

end Cert.ReferenceIdeal.RefValue

end
-- ==== Proof.RValue.lean ====
/-
  The reference kernel's two payloads at the ideal values, entry by entry.

  Both are plain matrix products into the zero accumulator: the scratch's payload, of staged rows `x` (1024 x 4096)
  and the staged first factor `a` (4096 x 16), is at (p, r) the sum Σ_k x(p, k) · a(k, r); the result's payload, of
  scratch contents `s` (1024 x 16) and a staged column tile `b` (16 x 512), is at (p, e) the sum Σ_r s(p, r) · b(r, e).
-/
import proofs.«171104_g2000505684096532_pallasbulk_122_20_alg».proof.Proof.Gen.ReferenceIdeal.Skeleton
import proofs.«171104_g2000505684096532_pallasbulk_122_20_alg».proof.Proof.LibPlainMatmul
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen
open Idealize.ShloMosaic Idealize.ShloMosaic.ValueIdx

theorem pay1_apply (x : Vec Ideal S1024x4096 .f32) (a : Vec Ideal S4096x16 .f32) (p : Fin 1024) (r : Fin 16) :
    k0_pay1 (F := Ideal) x a (ix2 p r) = ∑ k : Fin 4096, x (ix2 p k) * a (ix2 k r) := by
  unfold k0_pay1
  simp only [shapeCast_self]
  exact matmul_plain_zero_apply 1024 4096 16 none _ _ p r

theorem pay2_apply (s : Vec Ideal S1024x16 .f32) (b : Vec Ideal S16x512 .f32) (p : Fin 1024) (e : Fin 512) :
    k0_pay2 (F := Ideal) s b (ix2 p e) = ∑ r : Fin 16, s (ix2 p r) * b (ix2 r e) := by
  unfold k0_pay2
  simp only [shapeCast_self]
  exact matmul_plain_zero_apply 1024 16 512 none _ _ p e

end Cert.ReferenceIdeal.RefValue

end
-- ==== Proof.RData.lean ====
/-
  The idealized reference's result array is the LoRA product of its arguments.

  The reference's grid is 8 x 8, point t = 8·I + J: row tile I (1024 rows of `x`), column tile J (512 columns). A host
  operation before the region scales the second factor by 16. At J = 0 the body stores the 1024 x 16 product of the
  staged rows and the first factor into its scratch; within a row of tiles the staged rows do not move, so after EVERY
  point the scratch holds the product of that point's own staged rows and factor. The result's buffer therefore leaves
  every point holding (rows · A) · (16·B tile), which is tile (I, J) of  Σ_r (Σ_k x(i,k)·A(k,r)) · (16·B(r,j)) — the
  product with the scale folded into the second factor. The 64 tiles tile the array.
-/
import proofs.«171104_g2000505684096532_pallasbulk_122_20_alg».proof.Proof.RPieces
import proofs.«171104_g2000505684096532_pallasbulk_122_20_alg».proof.Proof.RValue
import proofs.«171104_g2000505684096532_pallasbulk_122_20_alg».proof.Proof.LoraSpec
import Idealize.ShloMosaic.Lib.Pipeline.Kit
import Idealize.ShloMosaic.Lib.Pipeline.Value
import Idealize.ShloMosaic.Lib.StableHlo.Run
set_option maxRecDepth 16384

noncomputable section

namespace Cert.ReferenceIdeal.RefValue

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx

variable (m : (ℓ : Loc nD τ sig) → Buf (Elt Ideal) ℓ) (ρ : Dev nD → PrngReg)

/-! ## The arguments and the product -/

abbrev argX (c : Dev nD) : S8192x4096.Idx → EReal := m ((c : Thread nD τ).loc main_arg0)
abbrev argA (c : Dev nD) : S4096x16.Idx → EReal := m ((c : Thread nD τ).loc main_arg1)
abbrev argB (c : Dev nD) : S16x4096.Idx → EReal := m ((c : Thread nD τ).loc main_arg2)

/-- The product of core `c`'s three argument arrays. -/
def product (c : Dev nD) : Buf (Elt Ideal) ((c : Thread nD τ).loc main_v2) :=
  Cert.Lora.lora (argX m c) (argA m c) (argB m c)

/-! ## The schedule, decided over the 64 points -/

theorem grid_facts : ∀ t : Fin cfg0.N,
    win0_0.index t (0 : Fin 2) = t.val / 8 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 8
    ∧ win0_3.index t (0 : Fin 2) = t.val / 8 ∧ win0_3.index t (1 : Fin 2) = t.val % 8
    ∧ t.val < 64 :=
  (by decide +kernel : ∀ t : Fin grid0.N, _)

/-! ## The staged blocks, read at an index -/

/-- The host operations before the region: the staged second factor is 16 · B. -/
theorem scaled_factor (c : Dev nD) :
    (V m c main_v1 : S16x4096.Idx → EReal)
      = mulf (broadcastInDim S16x4096 ![] bcast_S_S16x4096 (constant (F := Ideal) S_ .f32 0x41800000#32)) (argB m c) := by
  dsimp only [V, hostOps0]; after_results

/-- The staged rows at (p, k): the entry of `x` at the row tile's offset. -/
theorem rows_apply (c : Dev nD) (t : Fin cfg0.N) (p : Fin 1024) (k : Fin 4096) (i : S8192x4096.Idx)
    (h0 : (i 0).val = win0_0.index t (0 : Fin 2) * 1024 + p.val) (h1 : (i 1).val = k.val) :
    iblk m c 0 t (ix2 p k) = argX m c i := by
  obtain ⟨-, e1, -⟩ := grid_facts t
  unfold iblk
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = (i 0).val; omega
  | ⟨1, _⟩ => show win0_0.index t (1 : Fin 2) * 4096 + 1 * k.val = (i 1).val; omega

/-- The staged first factor at (k, r) is A(k, r), at every point. -/
theorem factorA_apply (c : Dev nD) (t : Fin cfg0.N) (k : Fin 4096) (r : Fin 16) :
    iblk m c 1 t (ix2 k r) = argA m c (ix2 k r) := by
  obtain ⟨-, -, e2, e3, -⟩ := grid_facts t
  unfold iblk
  show V m c main_arg1 (((cfg0.win 1).blk t).view.emb (ix2 k r)) = _
  have he : ((cfg0.win 1).blk t).view.emb (ix2 k r) = ix2 k r := by
    funext a; apply Fin.ext
    match a with
    | ⟨0, _⟩ => show win0_1.index t (0 : Fin 2) * 4096 + 1 * k.val = k.val; omega
    | ⟨1, _⟩ => show win0_1.index t (1 : Fin 2) * 16 + 1 * r.val = r.val; omega
  rw [he, V_main_arg1]

/-- The staged column tile of the scaled second factor at (r, e): 16 · B at the tile's offset. -/
theorem factorB_apply (c : Dev nD) (t : Fin cfg0.N) (r : Fin 16) (e : Fin 512) (i : S16x4096.Idx)
    (h0 : (i 0).val = r.val) (h1 : (i 1).val = win0_2.index t (1 : Fin 2) * 512 + e.val) :
    iblk m c 2 t (ix2 r e) = Cert.Lora.sixteen * argB m c i := by
  obtain ⟨-, -, -, -, e4, -⟩ := grid_facts t
  unfold iblk
  show V m c main_v1 (((cfg0.win 2).blk t).view.emb (ix2 r e)) = _
  have he : ((cfg0.win 2).blk t).view.emb (ix2 r e) = i := by
    funext a; apply Fin.ext
    match a with
    | ⟨0, _⟩ => show win0_2.index t (0 : Fin 2) * 16 + 1 * r.val = (i 0).val; omega
    | ⟨1, _⟩ => show win0_2.index t (1 : Fin 2) * 512 + 1 * e.val = (i 1).val; omega
  rw [he, scaled_factor]
  rfl

/-- Within a row of tiles the staged rows and the staged first factor do not move from one point to the next. -/
theorem same_row (c : Dev nD) (t t' : Fin cfg0.N) (h : t'.val = t.val - 1) (h0 : ¬t.val % 8 = 0) :
    (iblk m c 0 t' : Vec Ideal S1024x4096 .f32) = iblk m c 0 t ∧ (iblk m c 1 t' : Vec Ideal S4096x16 .f32) = iblk m c 1 t := by
  obtain ⟨a0, a1, a2, a3, -⟩ := grid_facts t
  obtain ⟨b0, b1, b2, b3, -⟩ := grid_facts t'
  constructor
  · funext y
    unfold iblk
    show V m c main_arg0 (((cfg0.win 0).blk t').view.emb y) = V m c main_arg0 (((cfg0.win 0).blk t).view.emb y)
    refine congrArg _ (funext fun a => Fin.ext ?_)
    match a with
    | ⟨0, _⟩ => show win0_0.index t' (0 : Fin 2) * 1024 + 1 * (y 0).val = win0_0.index t (0 : Fin 2) * 1024 + 1 * (y 0).val; omega
    | ⟨1, _⟩ => show win0_0.index t' (1 : Fin 2) * 4096 + 1 * (y 1).val = win0_0.index t (1 : Fin 2) * 4096 + 1 * (y 1).val; omega
  · funext y
    unfold iblk
    show V m c main_arg1 (((cfg0.win 1).blk t').view.emb y) = V m c main_arg1 (((cfg0.win 1).blk t).view.emb y)
    refine congrArg _ (funext fun a => Fin.ext ?_)
    match a with
    | ⟨0, _⟩ => show win0_1.index t' (0 : Fin 2) * 4096 + 1 * (y 0).val = win0_1.index t (0 : Fin 2) * 4096 + 1 * (y 0).val; omega
    | ⟨1, _⟩ => show win0_1.index t' (1 : Fin 2) * 16 + 1 * (y 1).val = win0_1.index t (1 : Fin 2) * 16 + 1 * (y 1).val; omega

/-! ## What the scratch and the result's buffer hold after each point -/

/-- After every point the scratch holds the product of that point's staged rows and staged first factor: stored at
    the first column tile of a row of tiles, kept (with the rows unmoved) at the others. -/
theorem scratch_at (c : Dev nD) : ∀ (n : ℕ) (t : Fin cfg0.N), t.val = n →
    (outsAt0 m c t.val t.isLt).2 = k0_pay1 (F := Ideal) (iblk m c 0 t) (iblk m c 1 t) := by
  intro n
  induction n with
  | zero =>
    intro t ht
    have h0 : t.val % 8 = 0 := by omega
    rw [outsAt0_A m c t h0]
    dsimp only
    exact scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)
  | succ n ih =>
    intro t ht
    by_cases h0 : t.val % 8 = 0
    · rw [outsAt0_A m c t h0]
      dsimp only
      exact scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)
    · rw [outsAt0_B m c t h0]
      dsimp only [sout0_B_0]
      have hlt : t.val - 1 < cfg0.N := Nat.lt_of_le_of_lt (Nat.sub_le _ _) t.isLt
      have key := ih ⟨t.val - 1, hlt⟩ (by show t.val - 1 = n; omega)
      obtain ⟨e0, e1⟩ := same_row m c t ⟨t.val - 1, hlt⟩ rfl h0
      rw [e0, e1] at key
      exact key

/-- So after every point the result's buffer holds (rows · A) · (scaled column tile) of that point's staged blocks. -/
theorem out_at (c : Dev nD) (t : Fin cfg0.N) :
    (outsAt0 m c t.val t.isLt).1
      = k0_pay2 (F := Ideal) (k0_pay1 (F := Ideal) (iblk m c 0 t) (iblk m c 1 t)) (iblk m c 2 t) := by
  by_cases h0 : t.val % 8 = 0
  · rw [outsAt0_A m c t h0]
    dsimp only
    exact out_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)
  · rw [outsAt0_B m c t h0]
    dsimp only
    have hlt : t.val - 1 < cfg0.N := Nat.lt_of_le_of_lt (Nat.sub_le _ _) t.isLt
    have key := scratch_at m c (t.val - 1) ⟨t.val - 1, hlt⟩ rfl
    obtain ⟨e0, e1⟩ := same_row m c t ⟨t.val - 1, hlt⟩ rfl h0
    rw [e0, e1] at key
    refine (out_later (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) hlt).2).trans ?_
    exact congrArg (fun s => k0_pay2 (F := Ideal) s (iblk m c 2 t)) key

/-! ## The result array -/

/-- What point `t` writes back is its tile of the product. -/
theorem flushed_eq (c : Dev nD) (t : Fin cfg0.N) :
    (dats m 0 c).flushed 3 t = ((cfg0.win 3).blk t).view.read (Elt Ideal) (product m c) := by
  obtain ⟨e0, e1, -, -, e4, e5, e6, e7, -⟩ := grid_facts t
  show (cfg0.win 3).cut (grid0.coords t) ((dats m 0 c).after 3 t) = _
  rw [after0_3, out_at]
  funext j
  show k0_pay2 (F := Ideal) _ _ (win0_3.xinj (grid0.coords t) j) = product m c (((cfg0.win 3).blk t).view.emb j)
  obtain ⟨p, e, hpe, hp, he⟩ : ∃ (p : Fin 1024) (e : Fin 512), win0_3.xinj (grid0.coords t) j = ix2 p e
      ∧ p.val = (j (0 : Fin 2)).val ∧ e.val = (j (1 : Fin 2)).val :=
    ⟨win0_3.xinj (grid0.coords t) j (0 : Fin 2), win0_3.xinj (grid0.coords t) j (1 : Fin 2),
      eq_ix2 (n0 := 1024) (n1 := 512) _, rfl, rfl⟩
  rw [hpe, pay2_apply]
  unfold product
  rw [Cert.Lora.lora_eq_scaled_second]
  unfold Cert.Lora.xa
  refine Finset.sum_congr rfl fun r _ => ?_
  refine congrArg₂ (· * ·) ?_ ?_
  · rw [pay1_apply]
    refine Finset.sum_congr rfl fun k _ => ?_
    refine congrArg₂ (· * ·) ?_ (factorA_apply m c t k r)
    refine rows_apply m c t p k _ ?_ rfl
    show win0_3.index t (0 : Fin 2) * 1024 + 1 * (j (0 : Fin 2)).val = win0_0.index t (0 : Fin 2) * 1024 + p.val
    omega
  · refine factorB_apply m c t r e _ rfl ?_
    show win0_3.index t (1 : Fin 2) * 512 + 1 * (j (1 : Fin 2)).val = win0_2.index t (1 : Fin 2) * 512 + e.val
    omega

/-- An index of the array is in point `t`'s tile iff each coordinate is in the tile's range. -/
theorem mem_tile (t : Fin cfg0.N) (i : S8192x4096.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v2).slice (win0_3.rect t)).set ↔ _
  rw [View.set_slice_whole, Rect.mem_set_unit]
  exact Iff.rfl

/-- Entry (i, j) is in the tile of point 8·(i / 1024) + j / 512. -/
theorem covered (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 64 := N_0
  let t : Fin cfg0.N := ⟨(i 0).val / 1024 * 8 + (i 1).val / 512, by omega⟩
  have ht : t.val = (i 0).val / 1024 * 8 + (i 1).val / 512 := rfl
  obtain ⟨-, -, -, -, -, -, e6, e7, -⟩ := grid_facts t
  refine ⟨t, flush0_3 t, (mem_tile t i).mpr fun a => ?_⟩
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 512 ≤ (i 1).val ∧ (i 1).val < win0_3.index t (1 : Fin 2) * 512 + 512
    omega

/-- The result array after the run is the product. -/
theorem final (c : Dev nD) : (dats m 0 c).arrAt 3 cfg0.N = product m c :=
  (dats m 0 c).arrAt_eq_of_cover 3 (product m c) (fun t _ => flushed_eq m c t) covered

/-- The idealized reference runs, ends with its result array at the product of its arguments, and leaves the
    arguments as they were. -/
theorem run : θ_run defs (onTc (τ := τ) (main (F := Ideal))) ⟨m, fun _ => 0, ρ⟩ (fun r => ∀ c : Dev nD,
      r.2.mem ((c.tc : Thread nD τ).loc main_v2) = product m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.ReferenceIdeal.RefValue

end
-- ==== Proof.lean ====
/-
  The certificate of the LoRA product  y = 16 · (x · A) · B  (x : 8192 × 4096, A : 4096 × 16, B : 16 × 4096).

  The kernel computes it in one pass over ten row tiles of 832 rows (the last overhanging the array): the first
  factor, handed over transposed, is transposed back into a scratch at the first tile, and each tile's rows are
  multiplied by the scratch, scaled by 16, and multiplied by the second factor. The reference scales the second factor
  by 16 first and runs an 8 × 8 grid of 1024 × 512 tiles, keeping each row tile's 1024 × 16 intermediate in a scratch
  across its eight column tiles. Over the extended reals both result arrays are, entry by entry,

      Σ_r (16 · Σ_k x(i,k) · A(k,r)) · B(r,j)   and   Σ_r (Σ_k x(i,k) · A(k,r)) · (16 · B(r,j)),

  equal term by term by commutativity and associativity of the product (Proof/LoraSpec.lean) — no finiteness is needed,
  and the precondition is never opened.

  The modules: Proof/KRuns, KPieces, KFrame — the word-level kernel's body, run once per control case, and its frame;
  Proof/KIRuns, KIPieces, KIValue, KIData — the same body at the ideal values, its payloads as sums, and the idealized
  kernel's result array as the product; Proof/RPieces, RValue, RData — the idealized reference's result array as the
  product; Proof/LibPlainMatmul — a plain matrix product read at an index. The ideal pass rewrote nothing, so the
  idealization claim has no conjunct.
-/
import proofs.«171104_g2000505684096532_pallasbulk_122_20_alg».proof.Defs
import proofs.«171104_g2000505684096532_pallasbulk_122_20_alg».proof.Proof.KFrame
import proofs.«171104_g2000505684096532_pallasbulk_122_20_alg».proof.Proof.KIData
import proofs.«171104_g2000505684096532_pallasbulk_122_20_alg».proof.Proof.RData
import proofs.«171104_g2000505684096532_pallasbulk_122_20_alg».proof.Proof.Gen.Kernel
import proofs.«171104_g2000505684096532_pallasbulk_122_20_alg».proof.Proof.Gen.KernelIdeal
import proofs.«171104_g2000505684096532_pallasbulk_122_20_alg».proof.Proof.Gen.ReferenceIdeal
import proofs.«171104_g2000505684096532_pallasbulk_122_20_alg».proof.Proof.Gen.Pre_finite_inputs
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Body.frame (F := Bits) m ρ

/-- So does the idealized kernel, -/
theorem frame_kernel_ideal : Cert.frame_KernelIdeal := fun m ρ _ => Cert.KernelIdeal.Body.frame m ρ

/-- and the idealized reference. -/
theorem frame_reference_ideal : Cert.frame_ReferenceIdeal := fun m ρ _ => Cert.ReferenceIdeal.Gen.frame (F := Ideal) m ρ

/-- The ideal pass rewrote no operation. -/
theorem preserves : Cert.preserves_Kernel_KernelIdeal := trivial

/-- From memories agreeing on the arguments both idealized programs end with their result arrays at the product of
    the arguments: the same function of the same arrays. -/
theorem algebraic : Cert.algebraic_KernelIdeal_ReferenceIdeal := by
  intro m ρ m' ρ' _ hagree
  refine ⟨fun c => Cert.KernelIdeal.Body.product m c, Cert.KernelIdeal.Body.run m ρ, ?_⟩
  refine (θ_run Cert.ReferenceIdeal.defs _ _).mono (fun _ h c => ⟨(h c).1.trans ?_, (h c).2⟩)
    (Cert.ReferenceIdeal.RefValue.run m' ρ')
  unfold Cert.ReferenceIdeal.RefValue.product Cert.KernelIdeal.Body.product
  dsimp only [Cert.ReferenceIdeal.RefValue.argX, Cert.ReferenceIdeal.RefValue.argA, Cert.ReferenceIdeal.RefValue.argB,
    Cert.KernelIdeal.Body.argX, Cert.KernelIdeal.Body.argA, Cert.KernelIdeal.Body.argB]
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
